-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x96x256x256 : Shape := ⟨4, ![8, 96, 256, 256]⟩
abbrev S12x96 : Shape := ⟨2, ![12, 96]⟩
abbrev S12 : Shape := ⟨1, ![12]⟩
abbrev S9x12 : Shape := ⟨2, ![9, 12]⟩
abbrev S9 : Shape := ⟨1, ![9]⟩
abbrev S_ : Shape := ⟨0, ![]⟩

class Facts : Prop where
  bcast_S_S8x96x256x256 : S_.BroadcastsInDim S8x96x256x256 (![] : Fin 0 → Fin S8x96x256x256.rank)
  reducesTo_S8x96x256x256_S_d0_1_2_3 : S8x96x256x256.ReducesTo [0, 1, 2, 3] S_
  h_S_ : 0 < S_.numel
  bcast_S_S12x96 : S_.BroadcastsInDim S12x96 (![] : Fin 0 → Fin S12x96.rank)
  reducesTo_S12x96_S_d0_1 : S12x96.ReducesTo [0, 1] S_
  bcast_S_S12 : S_.BroadcastsInDim S12 (![] : Fin 0 → Fin S12.rank)
  reducesTo_S12_S_d0 : S12.ReducesTo [0] S_
  bcast_S_S9x12 : S_.BroadcastsInDim S9x12 (![] : Fin 0 → Fin S9x12.rank)
  reducesTo_S9x12_S_d0_1 : S9x12.ReducesTo [0, 1] S_
  bcast_S_S9 : S_.BroadcastsInDim S9 (![] : Fin 0 → Fin S9.rank)
  reducesTo_S9_S_d0 : S9.ReducesTo [0] S_

variable [Facts]

def fn_part1 {F : FTy → Type} [FloatOps F] (main_arg4 : FVec F S9 .f32) (main_v13 : IVec S_ 1) (main_v16 : IVec S9x12 1) : IVec S_ 1 :=
  let main_c_5 : IVec S_ 1 := constantI S_ 1 1#1
  let main_v17 : IVec S_ 1 := (fun x v => Host.reduce IntOp.andi x v reducesTo_S9x12_S_d0_1 h_S_) main_v16 main_c_5
  let main_v18 : IVec S_ 1 := andi main_v13 main_v17
  let main_v19 : FVec F S9 .f32 := Host.absf main_arg4
  let main_cst_6 : FVec F S_ .f32 := constant S_ .f32 0x7F800000#32
  let main_v20 : FVec F S9 .f32 := broadcastInDim S9 ![] bcast_S_S9 main_cst_6
  let main_v21 : IVec S9 1 := cmpf .olt main_v19 main_v20
  let main_c_7 : IVec S_ 1 := constantI S_ 1 1#1
  let main_v22 : IVec S_ 1 := (fun x v => Host.reduce IntOp.andi x v reducesTo_S9_S_d0 h_S_) main_v21 main_c_7
  let main_v23 : IVec S_ 1 := andi main_v18 main_v22
  main_v23

def fn {F : FTy → Type} [FloatOps F] (main_arg0 : FVec F S8x96x256x256 .f32) (main_arg1 : FVec F S12x96 .f32) (main_arg2 : FVec F S12 .f32) (main_arg3 : FVec F S9x12 .f32) (main_arg4 : FVec F S9 .f32) : IVec S_ 1 :=
  let main_v0 : FVec F S8x96x256x256 .f32 := Host.absf main_arg0
  let main_cst : FVec F S_ .f32 := constant S_ .f32 0x7F800000#32
  let main_v1 : FVec F S8x96x256x256 .f32 := broadcastInDim S8x96x256x256 ![] bcast_S_S8x96x256x256 main_cst
  let main_v2 : IVec S8x96x256x256 1 := cmpf .olt main_v0 main_v1
  let main_c : IVec S_ 1 := constantI S_ 1 1#1
  let main_v3 : IVec S_ 1 := (fun x v => Host.reduce IntOp.andi x v reducesTo_S8x96x256x256_S_d0_1_2_3 h_S_) main_v2 main_c
  let main_v4 : FVec F S12x96 .f32 := Host.absf main_arg1
  let main_cst_0 : FVec F S_ .f32 := constant S_ .f32 0x7F800000#32
  let main_v5 : FVec F S12x96 .f32 := broadcastInDim S12x96 ![] bcast_S_S12x96 main_cst_0
  let main_v6 : IVec S12x96 1 := cmpf .olt main_v4 main_v5
  let main_c_1 : IVec S_ 1 := constantI S_ 1 1#1
  let main_v7 : IVec S_ 1 := (fun x v => Host.reduce IntOp.andi x v reducesTo_S12x96_S_d0_1 h_S_) main_v6 main_c_1
  let main_v8 : IVec S_ 1 := andi main_v3 main_v7
  let main_v9 : FVec F S12 .f32 := Host.absf main_arg2
  let main_cst_2 : FVec F S_ .f32 := constant S_ .f32 0x7F800000#32
  let main_v10 : FVec F S12 .f32 := broadcastInDim S12 ![] bcast_S_S12 main_cst_2
  let main_v11 : IVec S12 1 := cmpf .olt main_v9 main_v10
  let main_c_3 : IVec S_ 1 := constantI S_ 1 1#1
  let main_v12 : IVec S_ 1 := (fun x v => Host.reduce IntOp.andi x v reducesTo_S12_S_d0 h_S_) main_v11 main_c_3
  let main_v13 : IVec S_ 1 := andi main_v8 main_v12
  let main_v14 : FVec F S9x12 .f32 := Host.absf main_arg3
  let main_cst_4 : FVec F S_ .f32 := constant S_ .f32 0x7F800000#32
  let main_v15 : FVec F S9x12 .f32 := broadcastInDim S9x12 ![] bcast_S_S9x12 main_cst_4
  let main_v16 : IVec S9x12 1 := cmpf .olt main_v14 main_v15
  fn_part1 (F := F) main_arg4 main_v13 main_v16
-- ==== Kernel.lean ====
abbrev S8x96x256x256 : Shape := ⟨4, ![8, 96, 256, 256]⟩
abbrev S12x96 : Shape := ⟨2, ![12, 96]⟩
abbrev S12 : Shape := ⟨1, ![12]⟩
abbrev S9x12 : Shape := ⟨2, ![9, 12]⟩
abbrev S9 : Shape := ⟨1, ![9]⟩
abbrev S96x8 : Shape := ⟨2, ![96, 8]⟩
abbrev S8x8x256x256 : Shape := ⟨4, ![8, 8, 256, 256]⟩
abbrev S8x8 : Shape := ⟨2, ![8, 8]⟩
abbrev S8x8x64x256 : Shape := ⟨4, ![8, 8, 64, 256]⟩
abbrev S8x8x64 : Shape := ⟨3, ![8, 8, 64]⟩
abbrev S8x96 : Shape := ⟨2, ![8, 96]⟩
abbrev S96x12 : Shape := ⟨2, ![96, 12]⟩
abbrev S8x12 : Shape := ⟨2, ![8, 12]⟩
abbrev S1x12 : Shape := ⟨2, ![1, 12]⟩
abbrev S_ : Shape := ⟨0, ![]⟩
abbrev S12x9 : Shape := ⟨2, ![12, 9]⟩
abbrev S8x9 : Shape := ⟨2, ![8, 9]⟩
abbrev S1x9 : Shape := ⟨2, ![1, 9]⟩
abbrev S8 : Shape := ⟨1, ![8]⟩
abbrev S8x1 : Shape := ⟨2, ![8, 1]⟩
abbrev S8x2x256x256 : Shape := ⟨4, ![8, 2, 256, 256]⟩
abbrev S8x2x256x255 : Shape := ⟨4, ![8, 2, 256, 255]⟩
abbrev S8x2x256x1 : Shape := ⟨4, ![8, 2, 256, 1]⟩
abbrev S8x1x1x1 : Shape := ⟨4, ![8, 1, 1, 1]⟩
abbrev S8x2x255x256 : Shape := ⟨4, ![8, 2, 255, 256]⟩
abbrev S8x2x1x256 : Shape := ⟨4, ![8, 2, 1, 256]⟩

abbrev nBuf : Space → Nat
  | .hbm => 35
  | .vmem => 9
  | .smem => 0
  | _ => 0

abbrev bufTy : (tb : Table) → Fin (tcTables nBuf tb) → BufTy
  | .hbm, ⟨0, _⟩ => ⟨S8x96x256x256, .f32⟩
  | .hbm, ⟨1, _⟩ => ⟨S12x96, .f32⟩
  | .hbm, ⟨2, _⟩ => ⟨S12, .f32⟩
  | .hbm, ⟨3, _⟩ => ⟨S9x12, .f32⟩
  | .hbm, ⟨4, _⟩ => ⟨S9, .f32⟩
  | .hbm, ⟨5, _⟩ => ⟨S96x8, .f32⟩
  | .hbm, ⟨6, _⟩ => ⟨S8x96, .f32⟩
  | .hbm, ⟨7, _⟩ => ⟨S96x12, .f32⟩
  | .hbm, ⟨8, _⟩ => ⟨S8x12, .f32⟩
  | .hbm, ⟨9, _⟩ => ⟨S1x12, .f32⟩
  | .hbm, ⟨10, _⟩ => ⟨S8x12, .f32⟩
  | .hbm, ⟨11, _⟩ => ⟨S8x12, .f32⟩
  | .hbm, ⟨12, _⟩ => ⟨S_, .f32⟩
  | .hbm, ⟨13, _⟩ => ⟨S8x12, .f32⟩
  | .hbm, ⟨14, _⟩ => ⟨S8x12, .f32⟩
  | .hbm, ⟨15, _⟩ => ⟨S12x9, .f32⟩
  | .hbm, ⟨16, _⟩ => ⟨S8x9, .f32⟩
  | .hbm, ⟨17, _⟩ => ⟨S1x9, .f32⟩
  | .hbm, ⟨18, _⟩ => ⟨S8x9, .f32⟩
  | .hbm, ⟨19, _⟩ => ⟨S8x9, .f32⟩
  | .hbm, ⟨20, _⟩ => ⟨S_, .f32⟩
  | .hbm, ⟨21, _⟩ => ⟨S8, .f32⟩
  | .hbm, ⟨22, _⟩ => ⟨S_, .f32⟩
  | .hbm, ⟨23, _⟩ => ⟨S8, .f32⟩
  | .hbm, ⟨24, _⟩ => ⟨S8, .f32⟩
  | .hbm, ⟨25, _⟩ => ⟨S8x1, .f32⟩
  | .hbm, ⟨26, _⟩ => ⟨S8x9, .f32⟩
  | .hbm, ⟨27, _⟩ => ⟨S8x9, .f32⟩
  | .hbm, ⟨28, _⟩ => ⟨S8x9, .f32⟩
  | .hbm, ⟨29, _⟩ => ⟨S_, .f32⟩
  | .hbm, ⟨30, _⟩ => ⟨S8, .f32⟩
  | .hbm, ⟨31, _⟩ => ⟨S8x1, .f32⟩
  | .hbm, ⟨32, _⟩ => ⟨S8x9, .f32⟩
  | .hbm, ⟨33, _⟩ => ⟨S8x9, .f32⟩
  | .hbm, ⟨34, _⟩ => ⟨S8x96x256x256, .f32⟩
  | .local _ .vmem, ⟨0, _⟩ => ⟨S8x8x256x256, .f32⟩
  | .local _ .vmem, ⟨1, _⟩ => ⟨S8x8x256x256, .f32⟩
  | .local _ .vmem, ⟨2, _⟩ => ⟨S8x8, .f32⟩
  | .local _ .vmem, ⟨3, _⟩ => ⟨S8x8, .f32⟩
  | .local _ .vmem, ⟨4, _⟩ => ⟨S8x9, .f32⟩
  | .local _ .vmem, ⟨5, _⟩ => ⟨S8x2x256x256, .f32⟩
  | .local _ .vmem, ⟨6, _⟩ => ⟨S8x2x256x256, .f32⟩
  | .local _ .vmem, ⟨7, _⟩ => ⟨S8x2x256x256, .f32⟩
  | .local _ .vmem, ⟨8, _⟩ => ⟨S8x2x256x256, .f32⟩
  | _, _ => ⟨S8x96x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_call0_cst : Ref sig .tc := ⟨.hbm, 12, rfl⟩
abbrev main_call0_v0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_cst_0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_1 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg1_0 : Ref sig .tc := ⟨.vmem, 5, rfl⟩
abbrev cc1_stg1_1 : Ref sig .tc := ⟨.vmem, 6, rfl⟩
abbrev cc1_stg2_0 : Ref sig .tc := ⟨.vmem, 7, rfl⟩
abbrev cc1_stg2_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem1_0 : DmaSem sig := 5
abbrev cc1_sem1_1 : DmaSem sig := 6
abbrev cc1_sem2_0 : DmaSem sig := 7
abbrev cc1_sem2_1 : DmaSem sig := 8

abbrev nD : Nat := 1
abbrev τ : Topo := Topo.v7x

variable {F : FTy → Type} [FloatOps F]

abbrev grid0 : Pipeline.Grid := ⟨1, ![12], ![false]⟩

def k0_mult1 : BitVec 32 :=
  let c0_i32 : BitVec 32 := 0#32
  let c64_i32 : BitVec 32 := 64#32
  let v1 : BitVec 32 := Scalar.muli c0_i32 c64_i32
  v1
def k0_off1 (c0_i32 : BitVec 32) : Fin 4 → Nat :=
  let c0 : Index := 0#32
  let c0_0 : Index := 0#32
  let c64_i32 : BitVec 32 := 64#32
  let v1 : BitVec 32 := Scalar.muli c0_i32 c64_i32
  let v2 : BitVec 32 := v1
  let v3 : Index := Scalar.indexCast v2
  let c0_1 : Index := 0#32
  ![0, 0, v3.toNat, 0]
def k0_mult2 : BitVec 32 :=
  let c1_i32 : BitVec 32 := 1#32
  let c64_i32_4 : BitVec 32 := 64#32
  let v8 : BitVec 32 := Scalar.muli c1_i32 c64_i32_4
  v8
def k0_mult3 : BitVec 32 :=
  let c2_i32 : BitVec 32 := 2#32
  let c64_i32_10 : BitVec 32 := 64#32
  let v15 : BitVec 32 := Scalar.muli c2_i32 c64_i32_10
  v15
def k0_mult4 : BitVec 32 :=
  let c3_i32 : BitVec 32 := 3#32
  let c64_i32_16 : BitVec 32 := 64#32
  let v22 : BitVec 32 := Scalar.muli c3_i32 c64_i32_16
  v22
def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x8x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![48], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc1_transform_2 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage1_0 : Fin 1 → Memref sig .tc .vmem S8x9 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S8x2x256x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8x2x256x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  h_S8x8x64x256 : 0 < S8x8x64x256.numel
  reduces_S8x8x64x256_S8x8x64 : S8x8x64x256.Reduces [3] S8x8x64
  reduces_S8x8x64_S8x8 : S8x8x64.Reduces [2] S8x8
  transposes_S8x8_p1_0_S8x8 : S8x8.Transposes [1, 0] S8x8
  inb_S8x8_S8x8_0_0 : ∀ a, (![0, 0] : Fin 2 → Nat) a + S8x8.size a ≤ S8x8.size a
  h_S8x8 : 0 < S8x8.numel
  transposes_S96x8_S8x96_1_0 : S96x8.Transposes [1, 0] S8x96
  transposes_S12x96_S96x12_1_0 : S12x96.Transposes [1, 0] S96x12
  bcast_S12_S1x12_1 : S12.BroadcastsInDim S1x12 (![1] : Fin 1 → Fin S1x12.rank)
  bcast_S1x12_S8x12_0_1 : S1x12.BroadcastsInDim S8x12 (![0, 1] : Fin 2 → Fin S8x12.rank)
  bcast_S_S8x12 : S_.BroadcastsInDim S8x12 (![] : Fin 0 → Fin S8x12.rank)
  transposes_S9x12_S12x9_1_0 : S9x12.Transposes [1, 0] S12x9
  bcast_S9_S1x9_1 : S9.BroadcastsInDim S1x9 (![1] : Fin 1 → Fin S1x9.rank)
  bcast_S1x9_S8x9_0_1 : S1x9.BroadcastsInDim S8x9 (![0, 1] : Fin 2 → Fin S8x9.rank)
  reducesTo_S8x9_S8_d1 : S8x9.ReducesTo [1] S8
  h_S_ : 0 < S_.numel
  bcast_S_S8 : S_.BroadcastsInDim S8 (![] : Fin 0 → Fin S8.rank)
  bcast_S8_S8x1_0 : S8.BroadcastsInDim S8x1 (![0] : Fin 1 → Fin S8x1.rank)
  bcast_S8x1_S8x9_0_1 : S8x1.BroadcastsInDim S8x9 (![0, 1] : Fin 2 → Fin S8x9.rank)
  inb_S8x2x256x256_S8x2x256x256_0_0_0_0 : ∀ a, (![0, 0, 0, 0] : Fin 4 → Nat) a + S8x2x256x256.size a ≤ S8x2x256x256.size a
  h_S8x2x256x256 : 0 < S8x2x256x256.numel
  slices_S8x2x256x256_o0_0_0_0_S8x2x256x255 : S8x2x256x256.Slices ![0, 0, 0, 0] S8x2x256x255
  concatenates_S8x2x256x1_S8x2x256x255_S8x2x256x256_d3 : Shape.Concatenates [S8x2x256x1, S8x2x256x255] S8x2x256x256 3
  slices_S8x2x256x256_o0_0_0_1_S8x2x256x255 : S8x2x256x256.Slices ![0, 0, 0, 1] S8x2x256x255
  concatenates_S8x2x256x255_S8x2x256x1_S8x2x256x256_d3 : Shape.Concatenates [S8x2x256x255, S8x2x256x1] S8x2x256x256 3
  inb_S8x9_S8x1_0_0 : ∀ a, (![0, 0] : Fin 2 → Nat) a + S8x1.size a ≤ S8x9.size a
  h_S8x1 : 0 < S8x1.numel
  shapeCasts_S8x1_S8 : S8x1.ShapeCasts S8
  shapeCasts_S8_S8x1x1x1 : S8.ShapeCasts S8x1x1x1
  inb_S8x9_S8x1_0_1 : ∀ a, (![0, 1] : Fin 2 → Nat) a + S8x1.size a ≤ S8x9.size a
  inb_S8x9_S8x1_0_2 : ∀ a, (![0, 2] : Fin 2 → Nat) a + S8x1.size a ≤ S8x9.size a
  broadcasts_S8x1x1x1_S8x2x256x256 : S8x1x1x1.Broadcasts S8x2x256x256
  slices_S8x2x256x256_o0_0_0_0_S8x2x255x256 : S8x2x256x256.Slices ![0, 0, 0, 0] S8x2x255x256
  concatenates_S8x2x1x256_S8x2x255x256_S8x2x256x256_d2 : Shape.Concatenates [S8x2x1x256, S8x2x255x256] S8x2x256x256 2
  inb_S8x9_S8x1_0_3 : ∀ a, (![0, 3] : Fin 2 → Nat) a + S8x1.size a ≤ S8x9.size a
  inb_S8x9_S8x1_0_4 : ∀ a, (![0, 4] : Fin 2 → Nat) a + S8x1.size a ≤ S8x9.size a
  inb_S8x9_S8x1_0_5 : ∀ a, (![0, 5] : Fin 2 → Nat) a + S8x1.size a ≤ S8x9.size a
  inb_S8x9_S8x1_0_6 : ∀ a, (![0, 6] : Fin 2 → Nat) a + S8x1.size a ≤ S8x9.size a
  inb_S8x9_S8x1_0_7 : ∀ a, (![0, 7] : Fin 2 → Nat) a + S8x1.size a ≤ S8x9.size a
  inb_S8x9_S8x1_0_8 : ∀ a, (![0, 8] : Fin 2 → Nat) a + S8x1.size a ≤ S8x9.size a
  slices_S8x2x256x256_o0_0_1_0_S8x2x255x256 : S8x2x256x256.Slices ![0, 0, 1, 0] S8x2x255x256
  concatenates_S8x2x255x256_S8x2x1x256_S8x2x256x256_d2 : Shape.Concatenates [S8x2x255x256, S8x2x1x256] S8x2x256x256 2
  dot_S8x96_S96x12_S8x12_1_0_0_1_n_n_wf : DotDims.WF S8x96 S96x12 S8x12 [1] [0] [0] [1] [] []
  dot_S8x12_S12x9_S8x9_1_0_0_1_n_n_wf : DotDims.WF S8x12 S12x9 S8x9 [1] [0] [0] [1] [] []
  hrank0 : 0 < grid0.rank
  k0_mult1_dvd : 64 ∣ k0_mult1.toNat
  k0_off1_inb : ∀ (r : Fin 4), ∀ a, (k0_off1 (BitVec.ofNat 32 r.val)) a + S8x8x64x256.size a ≤ S8x8x256x256.size a
  k0_mult2_dvd : 64 ∣ k0_mult2.toNat
  k0_mult3_dvd : 64 ∣ k0_mult3.toNat
  k0_mult4_dvd : 64 ∣ k0_mult4.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x8x256x256.size a ≤ S8x96x256x256.size a
  hwx0_0 : ∀ i : grid0.Coords, EltTy.bits .f32 = 32 ∨ (Rect.block (s := S8x96x256x256) S8x8x256x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x8.size a ≤ S96x8.size a
  hwx0_1 : ∀ i : grid0.Coords, EltTy.bits .f32 = 32 ∨ (Rect.block (s := S96x8) S8x8.size (cc0_transform_1 i) (hinb0_1 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S8x9.size a ≤ S8x9.size a
  hwx1_0 : ∀ i : grid1.Coords, EltTy.bits .f32 = 32 ∨ (Rect.block (s := S8x9) S8x9.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8x2x256x256.size a ≤ S8x96x256x256.size a
  hwx1_1 : ∀ i : grid1.Coords, EltTy.bits .f32 = 32 ∨ (Rect.block (s := S8x96x256x256) S8x2x256x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8x2x256x256.size a ≤ S8x96x256x256.size a
  hwx1_2 : ∀ i : grid1.Coords, EltTy.bits .f32 = 32 ∨ (Rect.block (s := S8x96x256x256) S8x2x256x256.size (cc1_transform_2 i) (hinb1_2 i)).WholeWords (EltTy.packing .f32)

variable [Facts₀]

def dot_S8x96_S96x12_S8x12_1_0_0_1_n_n : DotDims S8x96 S96x12 S8x12 where
  lhsContracting := [1]
  rhsContracting := [0]
  lhsNonContracting := [0]
  rhsNonContracting := [1]
  lhsBatch := []
  rhsBatch := []
  wf := dot_S8x96_S96x12_S8x12_1_0_0_1_n_n_wf
def dot_S8x12_S12x9_S8x9_1_0_0_1_n_n : DotDims S8x12 S12x9 S8x9 where
  lhsContracting := [1]
  rhsContracting := [0]
  lhsNonContracting := [0]
  rhsNonContracting := [1]
  lhsBatch := []
  rhsBatch := []
  wf := dot_S8x12_S12x9_S8x9_1_0_0_1_n_n_wf

abbrev win0_0 : Pipeline.Window sig grid0 :=
  Pipeline.Window.ofSpec (Memref.whole main_arg0) S8x8x256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8x8.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v23) S8x9.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S8x2x256x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v24) S8x2x256x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S8x96x256x256 : Shape := ⟨4, ![8, 96, 256, 256]⟩
abbrev S12x96 : Shape := ⟨2, ![12, 96]⟩
abbrev S12 : Shape := ⟨1, ![12]⟩
abbrev S9x12 : Shape := ⟨2, ![9, 12]⟩
abbrev S9 : Shape := ⟨1, ![9]⟩
abbrev S_ : Shape := ⟨0, ![]⟩
abbrev S8x96 : Shape := ⟨2, ![8, 96]⟩
abbrev S96x12 : Shape := ⟨2, ![96, 12]⟩
abbrev S8x12 : Shape := ⟨2, ![8, 12]⟩
abbrev S1x12 : Shape := ⟨2, ![1, 12]⟩
abbrev S12x9 : Shape := ⟨2, ![12, 9]⟩
abbrev S8x9 : Shape := ⟨2, ![8, 9]⟩
abbrev S1x9 : Shape := ⟨2, ![1, 9]⟩
abbrev S8 : Shape := ⟨1, ![8]⟩
abbrev S8x1 : Shape := ⟨2, ![8, 1]⟩
abbrev S8x96x258x258 : Shape := ⟨4, ![8, 96, 258, 258]⟩
abbrev S8x1x1x1 : Shape := ⟨4, ![8, 1, 1, 1]⟩

abbrev nBuf : Space → Nat
  | .hbm => 105
  | .vmem => 0
  | .smem => 0
  | _ => 0

abbrev bufTy : (tb : Table) → Fin (tcTables nBuf tb) → BufTy
  | .hbm, ⟨0, _⟩ => ⟨S8x96x256x256, .f32⟩
  | .hbm, ⟨1, _⟩ => ⟨S12x96, .f32⟩
  | .hbm, ⟨2, _⟩ => ⟨S12, .f32⟩
  | .hbm, ⟨3, _⟩ => ⟨S9x12, .f32⟩
  | .hbm, ⟨4, _⟩ => ⟨S9, .f32⟩
  | .hbm, ⟨5, _⟩ => ⟨S_, .f32⟩
  | .hbm, ⟨6, _⟩ => ⟨S8x96, .f32⟩
  | .hbm, ⟨7, _⟩ => ⟨S_, .f32⟩
  | .hbm, ⟨8, _⟩ => ⟨S8x96, .f32⟩
  | .hbm, ⟨9, _⟩ => ⟨S8x96, .f32⟩
  | .hbm, ⟨10, _⟩ => ⟨S96x12, .f32⟩
  | .hbm, ⟨11, _⟩ => ⟨S8x12, .f32⟩
  | .hbm, ⟨12, _⟩ => ⟨S1x12, .f32⟩
  | .hbm, ⟨13, _⟩ => ⟨S8x12, .f32⟩
  | .hbm, ⟨14, _⟩ => ⟨S8x12, .f32⟩
  | .hbm, ⟨15, _⟩ => ⟨S_, .f32⟩
  | .hbm, ⟨16, _⟩ => ⟨S8x12, .f32⟩
  | .hbm, ⟨17, _⟩ => ⟨S8x12, .f32⟩
  | .hbm, ⟨18, _⟩ => ⟨S12x9, .f32⟩
  | .hbm, ⟨19, _⟩ => ⟨S8x9, .f32⟩
  | .hbm, ⟨20, _⟩ => ⟨S1x9, .f32⟩
  | .hbm, ⟨21, _⟩ => ⟨S8x9, .f32⟩
  | .hbm, ⟨22, _⟩ => ⟨S8x9, .f32⟩
  | .hbm, ⟨23, _⟩ => ⟨S_, .f32⟩
  | .hbm, ⟨24, _⟩ => ⟨S8, .f32⟩
  | .hbm, ⟨25, _⟩ => ⟨S_, .f32⟩
  | .hbm, ⟨26, _⟩ => ⟨S8, .f32⟩
  | .hbm, ⟨27, _⟩ => ⟨S8, .f32⟩
  | .hbm, ⟨28, _⟩ => ⟨S8x1, .f32⟩
  | .hbm, ⟨29, _⟩ => ⟨S8x9, .f32⟩
  | .hbm, ⟨30, _⟩ => ⟨S8x9, .f32⟩
  | .hbm, ⟨31, _⟩ => ⟨S8x9, .f32⟩
  | .hbm, ⟨32, _⟩ => ⟨S_, .f32⟩
  | .hbm, ⟨33, _⟩ => ⟨S8, .f32⟩
  | .hbm, ⟨34, _⟩ => ⟨S8x1, .f32⟩
  | .hbm, ⟨35, _⟩ => ⟨S8x9, .f32⟩
  | .hbm, ⟨36, _⟩ => ⟨S8x9, .f32⟩
  | .hbm, ⟨37, _⟩ => ⟨S_, .i32⟩
  | .hbm, ⟨38, _⟩ => ⟨S_, .f32⟩
  | .hbm, ⟨39, _⟩ => ⟨S8x96x258x258, .f32⟩
  | .hbm, ⟨40, _⟩ => ⟨S_, .f32⟩
  | .hbm, ⟨41, _⟩ => ⟨S8x96x256x256, .f32⟩
  | .hbm, ⟨42, _⟩ => ⟨S8x1, .f32⟩
  | .hbm, ⟨43, _⟩ => ⟨S8, .f32⟩
  | .hbm, ⟨44, _⟩ => ⟨S8x1x1x1, .f32⟩
  | .hbm, ⟨45, _⟩ => ⟨S8x96x256x256, .f32⟩
  | .hbm, ⟨46, _⟩ => ⟨S8x96x256x256, .f32⟩
  | .hbm, ⟨47, _⟩ => ⟨S8x96x256x256, .f32⟩
  | .hbm, ⟨48, _⟩ => ⟨S8x96x256x256, .f32⟩
  | .hbm, ⟨49, _⟩ => ⟨S8x1, .f32⟩
  | .hbm, ⟨50, _⟩ => ⟨S8, .f32⟩
  | .hbm, ⟨51, _⟩ => ⟨S8x1x1x1, .f32⟩
  | .hbm, ⟨52, _⟩ => ⟨S8x96x256x256, .f32⟩
  | .hbm, ⟨53, _⟩ => ⟨S8x96x256x256, .f32⟩
  | .hbm, ⟨54, _⟩ => ⟨S8x96x256x256, .f32⟩
  | .hbm, ⟨55, _⟩ => ⟨S8x96x256x256, .f32⟩
  | .hbm, ⟨56, _⟩ => ⟨S8x1, .f32⟩
  | .hbm, ⟨57, _⟩ => ⟨S8, .f32⟩
  | .hbm, ⟨58, _⟩ => ⟨S8x1x1x1, .f32⟩
  | .hbm, ⟨59, _⟩ => ⟨S8x96x256x256, .f32⟩
  | .hbm, ⟨60, _⟩ => ⟨S8x96x256x256, .f32⟩
  | .hbm, ⟨61, _⟩ => ⟨S8x96x256x256, .f32⟩
  | .hbm, ⟨62, _⟩ => ⟨S8x96x256x256, .f32⟩
  | .hbm, ⟨63, _⟩ => ⟨S8x1, .f32⟩
  | .hbm, ⟨64, _⟩ => ⟨S8, .f32⟩
  | .hbm, ⟨65, _⟩ => ⟨S8x1x1x1, .f32⟩
  | .hbm, ⟨66, _⟩ => ⟨S8x96x256x256, .f32⟩
  | .hbm, ⟨67, _⟩ => ⟨S8x96x256x256, .f32⟩
  | .hbm, ⟨68, _⟩ => ⟨S8x96x256x256, .f32⟩
  | .hbm, ⟨69, _⟩ => ⟨S8x96x256x256, .f32⟩
  | .hbm, ⟨70, _⟩ => ⟨S8x1, .f32⟩
  | .hbm, ⟨71, _⟩ => ⟨S8, .f32⟩
  | .hbm, ⟨72, _⟩ => ⟨S8x1x1x1, .f32⟩
  | .hbm, ⟨73, _⟩ => ⟨S8x96x256x256, .f32⟩
  | .hbm, ⟨74, _⟩ => ⟨S8x96x256x256, .f32⟩
  | .hbm, ⟨75, _⟩ => ⟨S8x96x256x256, .f32⟩
  | .hbm, ⟨76, _⟩ => ⟨S8x96x256x256, .f32⟩
  | .hbm, ⟨77, _⟩ => ⟨S8x1, .f32⟩
  | .hbm, ⟨78, _⟩ => ⟨S8, .f32⟩
  | .hbm, ⟨79, _⟩ => ⟨S8x1x1x1, .f32⟩
  | .hbm, ⟨80, _⟩ => ⟨S8x96x256x256, .f32⟩
  | .hbm, ⟨81, _⟩ => ⟨S8x96x256x256, .f32⟩
  | .hbm, ⟨82, _⟩ => ⟨S8x96x256x256, .f32⟩
  | .hbm, ⟨83, _⟩ => ⟨S8x96x256x256, .f32⟩
  | .hbm, ⟨84, _⟩ => ⟨S8x1, .f32⟩
  | .hbm, ⟨85, _⟩ => ⟨S8, .f32⟩
  | .hbm, ⟨86, _⟩ => ⟨S8x1x1x1, .f32⟩
  | .hbm, ⟨87, _⟩ => ⟨S8x96x256x256, .f32⟩
  | .hbm, ⟨88, _⟩ => ⟨S8x96x256x256, .f32⟩
  | .hbm, ⟨89, _⟩ => ⟨S8x96x256x256, .f32⟩
  | .hbm, ⟨90, _⟩ => ⟨S8x96x256x256, .f32⟩
  | .hbm, ⟨91, _⟩ => ⟨S8x1, .f32⟩
  | .hbm, ⟨92, _⟩ => ⟨S8, .f32⟩
  | .hbm, ⟨93, _⟩ => ⟨S8x1x1x1, .f32⟩
  | .hbm, ⟨94, _⟩ => ⟨S8x96x256x256, .f32⟩
  | .hbm, ⟨95, _⟩ => ⟨S8x96x256x256, .f32⟩
  | .hbm, ⟨96, _⟩ => ⟨S8x96x256x256, .f32⟩
  | .hbm, ⟨97, _⟩ => ⟨S8x96x256x256, .f32⟩
  | .hbm, ⟨98, _⟩ => ⟨S8x1, .f32⟩
  | .hbm, ⟨99, _⟩ => ⟨S8, .f32⟩
  | .hbm, ⟨100, _⟩ => ⟨S8x1x1x1, .f32⟩
  | .hbm, ⟨101, _⟩ => ⟨S8x96x256x256, .f32⟩
  | .hbm, ⟨102, _⟩ => ⟨S8x96x256x256, .f32⟩
  | .hbm, ⟨103, _⟩ => ⟨S8x96x256x256, .f32⟩
  | .hbm, ⟨104, _⟩ => ⟨S8x96x256x256, .f32⟩
  | _, _ => ⟨S8x96x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_call0_cst : Ref sig .tc := ⟨.hbm, 15, rfl⟩
abbrev main_call0_v0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_c : Ref sig .tc := ⟨.hbm, 37, rfl⟩
abbrev main_call1_v0 : Ref sig .tc := ⟨.hbm, 38, rfl⟩
abbrev main_v25 : Ref sig .tc := ⟨.hbm, 39, rfl⟩
abbrev main_cst_4 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩

abbrev nD : Nat := 1
abbrev τ : Topo := Topo.v7x

variable {F : FTy → Type} [FloatOps F]

class Facts₀ : Prop where
  reducesTo_S8x96x256x256_S8x96_d2_3 : S8x96x256x256.ReducesTo [2, 3] S8x96
  h_S_ : 0 < S_.numel
  bcast_S_S8x96 : S_.BroadcastsInDim S8x96 (![] : Fin 0 → Fin S8x96.rank)
  transposes_S12x96_S96x12_1_0 : S12x96.Transposes [1, 0] S96x12
  bcast_S12_S1x12_1 : S12.BroadcastsInDim S1x12 (![1] : Fin 1 → Fin S1x12.rank)
  bcast_S1x12_S8x12_0_1 : S1x12.BroadcastsInDim S8x12 (![0, 1] : Fin 2 → Fin S8x12.rank)
  bcast_S_S8x12 : S_.BroadcastsInDim S8x12 (![] : Fin 0 → Fin S8x12.rank)
  transposes_S9x12_S12x9_1_0 : S9x12.Transposes [1, 0] S12x9
  bcast_S9_S1x9_1 : S9.BroadcastsInDim S1x9 (![1] : Fin 1 → Fin S1x9.rank)
  bcast_S1x9_S8x9_0_1 : S1x9.BroadcastsInDim S8x9 (![0, 1] : Fin 2 → Fin S8x9.rank)
  reducesTo_S8x9_S8_d1 : S8x9.ReducesTo [1] S8
  bcast_S_S8 : S_.BroadcastsInDim S8 (![] : Fin 0 → Fin S8.rank)
  bcast_S8_S8x1_0 : S8.BroadcastsInDim S8x1 (![0] : Fin 1 → Fin S8x1.rank)
  bcast_S8x1_S8x9_0_1 : S8x1.BroadcastsInDim S8x9 (![0, 1] : Fin 2 → Fin S8x9.rank)
  pads_S8x96x256x256_S8x96x258x258_000_000_110_110 : S8x96x256x256.Pads (![0, 0, 1, 1] : Fin 4 → Nat) ![0, 0, 1, 1] ![0, 0, 0, 0] S8x96x258x258
  bcast_S_S8x96x256x256 : S_.BroadcastsInDim S8x96x256x256 (![] : Fin 0 → Fin S8x96x256x256.rank)
  slices_S8x9_S8x1_0_0 : S8x9.Slices ![0, 0] S8x1
  shapeCasts_S8x1_S8 : S8x1.ShapeCasts S8
  bcast_S8_S8x1x1x1_0 : S8.BroadcastsInDim S8x1x1x1 (![0] : Fin 1 → Fin S8x1x1x1.rank)
  slices_S8x96x258x258_S8x96x256x256_0_0_0_0 : S8x96x258x258.Slices ![0, 0, 0, 0] S8x96x256x256
  bcast_S8x1x1x1_S8x96x256x256_0_1_2_3 : S8x1x1x1.BroadcastsInDim S8x96x256x256 (![0, 1, 2, 3] : Fin 4 → Fin S8x96x256x256.rank)
  slices_S8x9_S8x1_0_1 : S8x9.Slices ![0, 1] S8x1
  slices_S8x96x258x258_S8x96x256x256_0_0_0_1 : S8x96x258x258.Slices ![0, 0, 0, 1] S8x96x256x256
  slices_S8x9_S8x1_0_2 : S8x9.Slices ![0, 2] S8x1
  slices_S8x96x258x258_S8x96x256x256_0_0_0_2 : S8x96x258x258.Slices ![0, 0, 0, 2] S8x96x256x256
  slices_S8x9_S8x1_0_3 : S8x9.Slices ![0, 3] S8x1
  slices_S8x96x258x258_S8x96x256x256_0_0_1_0 : S8x96x258x258.Slices ![0, 0, 1, 0] S8x96x256x256
  slices_S8x9_S8x1_0_4 : S8x9.Slices ![0, 4] S8x1
  slices_S8x96x258x258_S8x96x256x256_0_0_1_1 : S8x96x258x258.Slices ![0, 0, 1, 1] S8x96x256x256
  slices_S8x9_S8x1_0_5 : S8x9.Slices ![0, 5] S8x1
  slices_S8x96x258x258_S8x96x256x256_0_0_1_2 : S8x96x258x258.Slices ![0, 0, 1, 2] S8x96x256x256
  slices_S8x9_S8x1_0_6 : S8x9.Slices ![0, 6] S8x1
  slices_S8x96x258x258_S8x96x256x256_0_0_2_0 : S8x96x258x258.Slices ![0, 0, 2, 0] S8x96x256x256
  slices_S8x9_S8x1_0_7 : S8x9.Slices ![0, 7] S8x1
  slices_S8x96x258x258_S8x96x256x256_0_0_2_1 : S8x96x258x258.Slices ![0, 0, 2, 1] S8x96x256x256
  slices_S8x9_S8x1_0_8 : S8x9.Slices ![0, 8] S8x1
  slices_S8x96x258x258_S8x96x256x256_0_0_2_2 : S8x96x258x258.Slices ![0, 0, 2, 2] S8x96x256x256
  dot_S8x96_S96x12_S8x12_1_0_0_1_n_n_wf : DotDims.WF S8x96 S96x12 S8x12 [1] [0] [0] [1] [] []
  dot_S8x12_S12x9_S8x9_1_0_0_1_n_n_wf : DotDims.WF S8x12 S12x9 S8x9 [1] [0] [0] [1] [] []

variable [Facts₀]

def dot_S8x96_S96x12_S8x12_1_0_0_1_n_n : DotDims S8x96 S96x12 S8x12 where
  lhsContracting := [1]
  rhsContracting := [0]
  lhsNonContracting := [0]
  rhsNonContracting := [1]
  lhsBatch := []
  rhsBatch := []
  wf := dot_S8x96_S96x12_S8x12_1_0_0_1_n_n_wf
def dot_S8x12_S12x9_S8x9_1_0_0_1_n_n : DotDims S8x12 S12x9 S8x9 where
  lhsContracting := [1]
  rhsContracting := [0]
  lhsNonContracting := [0]
  rhsNonContracting := [1]
  lhsBatch := []
  rhsBatch := []
  wf := dot_S8x12_S12x9_S8x9_1_0_0_1_n_n_wf

class Facts : Prop extends Facts₀ where

variable [Facts]
-- ==== Proof.KernelRun.lean ====
/-
  The idealized kernel's whole run, with the RESULT array named.

  The program is two kernel launches with a stretch of host operations between them: the pooling
  launch writes the [96, 8] array of channel means, the host turns it into the [8, 9] table of
  softmax weights, and the convolution launch writes the result.  Every buffer the program leaves
  is the fold of the launch memory through those five segments; this module states the run with the
  result buffer read off the last boundary of that fold, beside the argument arrays, which end as
  they were launched.
-/
import proofs.«144171_j87892210745472_2_alg».proof.Proof.Gen.KernelIdeal.Frame

set_option maxRecDepth 16384

noncomputable section

namespace Cert.KernelIdeal.ConvRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer then
    holds what the last segment boundary holds there, and each argument array what it was launched
    with. -/
theorem run_result : θ_run defs (onTc (τ := τ) (main (F := F))) ⟨m, fun _ => 0, ρ⟩ (fun r => ∀ c : Dev nD,
      r.2.mem ((c.tc : Thread nD τ).loc main_v24) = W5 m ρ c (Proc.devRef .tc main_v24)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v24 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c)⟩)

end Cert.KernelIdeal.ConvRun

end
-- ==== Proof.WindowSum.lean ====
/-
  A 3 × 3 window sum over a plane with a border of zeros, with no program in sight.

  A 256 × 256 plane `g` is read with a one-cell border of zeros around it: `bordered g i j` is
  `g (i - 1) (j - 1)` for `1 ≤ i, j ≤ 256` and `0` on the border rows and columns `0` and `257` (and
  beyond).  The window sum at `(i, j)` takes the nine entries `bordered g (i + di) (j + dj)`,
  `di, dj ∈ {0, 1, 2}`, each against its weight `k (3 di + dj)`.

  Two ways of adding the nine products are compared: one product at a time from zero, in row-major
  order of the window (`windowTaps`), and row by row — each row's three products first, the three
  row sums then added from zero (`windowRows`).  Addition of extended reals is commutative and
  associative whatever infinities the terms hold, so the two agree with no finiteness assumed.
  A row of the window that lies in the border is zero, since a product with zero is zero for every
  extended real.
-/
import Idealize.ShloMosaic.PureOps.Ideal

noncomputable section

namespace Cert.DynConv

/-- The plane read with a one-cell border of zeros. -/
def bordered (g : Fin 256 → Fin 256 → EReal) (i j : ℕ) : EReal :=
  if h : (1 ≤ i ∧ i ≤ 256) ∧ (1 ≤ j ∧ j ≤ 256) then g ⟨i - 1, by omega⟩ ⟨j - 1, by omega⟩ else 0

/-- Inside the border the plane's own entry is read. -/
theorem bordered_inside (g : Fin 256 → Fin 256 → EReal) (i j : ℕ) (i' j' : Fin 256)
    (hi : i = i'.val + 1) (hj : j = j'.val + 1) : bordered g i j = g i' j' := by
  subst hi hj
  unfold bordered
  have hi' := i'.isLt
  have hj' := j'.isLt
  rw [dif_pos ⟨⟨by omega, by omega⟩, ⟨by omega, by omega⟩⟩]
  exact congrArg₂ g (Fin.ext (Nat.add_sub_cancel _ _)) (Fin.ext (Nat.add_sub_cancel _ _))

/-- On the border (and beyond it) the read is zero. -/
theorem bordered_outside (g : Fin 256 → Fin 256 → EReal) (i j : ℕ)
    (h : i = 0 ∨ 257 ≤ i ∨ j = 0 ∨ 257 ≤ j) : bordered g i j = 0 := by
  unfold bordered
  rw [dif_neg (by omega)]

/-- One row of the window: its three products, added left to right. -/
def row3 (k0 k1 k2 : EReal) (P : ℕ → ℕ → EReal) (i j : ℕ) : EReal :=
  k0 * P i j + k1 * P i (j + 1) + k2 * P i (j + 2)

/-- A row of zeros contributes zero, whatever the weights. -/
theorem row3_of_zero_row (k0 k1 k2 : EReal) (P : ℕ → ℕ → EReal) (i j : ℕ) (h : ∀ j, P i j = 0) :
    row3 k0 k1 k2 P i j = 0 := by
  unfold row3
  rw [h, h, h, mul_zero, mul_zero, mul_zero, add_zero, add_zero]

/-- The window sum taken row by row: the three row sums added from zero. -/
def windowRows (k : Fin 9 → EReal) (P : ℕ → ℕ → EReal) (i j : ℕ) : EReal :=
  0 + row3 (k 0) (k 1) (k 2) P i j + row3 (k 3) (k 4) (k 5) P (i + 1) j + row3 (k 6) (k 7) (k 8) P (i + 2) j

/-- The window sum taken one product at a time from zero, in row-major order of the window. -/
def windowTaps (k : Fin 9 → EReal) (P : ℕ → ℕ → EReal) (i j : ℕ) : EReal :=
  0 + k 0 * P i j + k 1 * P i (j + 1) + k 2 * P i (j + 2)
    + k 3 * P (i + 1) j + k 4 * P (i + 1) (j + 1) + k 5 * P (i + 1) (j + 2)
    + k 6 * P (i + 2) j + k 7 * P (i + 2) (j + 1) + k 8 * P (i + 2) (j + 2)

/-- The two groupings of the nine products agree: only associativity of addition is used. -/
theorem windowRows_eq_windowTaps (k : Fin 9 → EReal) (P : ℕ → ℕ → EReal) (i j : ℕ) :
    windowRows k P i j = windowTaps k P i j := by
  unfold windowRows windowTaps row3
  simp only [add_assoc]

end Cert.DynConv

end
-- ==== Proof.ConvLayout.lean ====
/-
  The layout steps of the convolution body, read at an entry, with no program in sight.

  The body works on a block of shape [8, 2, 256, 256].  It moves the block by one cell along the
  columns (axis 3) or along the rows (axis 2) by cutting off one end with a unit-stride slice and
  joining a strip of fill values to the other end.  Read at an entry, such a moved block is the fill
  where the strip lies and the source one cell over elsewhere.  A per-batch weight, loaded as a
  column [8, 1], is viewed as [8] and then as [8, 1, 1, 1] and spread over the block: at an entry
  with batch coordinate `b` it reads the column's entry `b`.
-/
import Idealize.ShloMosaic.Lib.Pipeline.Value
import Idealize.ShloMosaic.Lib.ValueIdx

namespace Cert.DynConv

open Idealize.ShloMosaic Idealize.ShloMosaic.ValueIdx

variable {α : Type}

/-! ## One cell along the columns -/

/-- A fill column in FRONT of the first 255 columns, read in column 0: the fill. -/
theorem fillThenCols_zero (X : (⟨4, ![8, 2, 256, 256]⟩ : Shape).Idx → α) (Z : (⟨4, ![8, 2, 256, 1]⟩ : Shape).Idx → α)
    (hs : (⟨4, ![8, 2, 256, 256]⟩ : Shape).Slices ![0, 0, 0, 0] ⟨4, ![8, 2, 256, 255]⟩)
    (hc : Shape.Concatenates [(⟨4, ![8, 2, 256, 1]⟩ : Shape), ⟨4, ![8, 2, 256, 255]⟩] ⟨4, ![8, 2, 256, 256]⟩ 3)
    (b : Fin 8) (cc : Fin 2) (i j : Fin 256) (hj : j.val = 0) :
    concatenate ⟨4, ![8, 2, 256, 256]⟩ 3 [⟨⟨4, ![8, 2, 256, 1]⟩, Z⟩, ⟨⟨4, ![8, 2, 256, 255]⟩, extractStridedSlice ⟨4, ![8, 2, 256, 255]⟩ ![0, 0, 0, 0] X hs⟩] hc (ix4 b cc i j)
      = Z (ix4 b cc i 0) :=
  concatenate_pair_apply_left 3 _ _ hc _ rfl (ix4 b cc i 0) (fun d => by
    match d with
    | ⟨0, _⟩ => rfl
    | ⟨1, _⟩ => rfl
    | ⟨2, _⟩ => rfl
    | ⟨3, _⟩ => exact hj.symm)

/-- A fill column in FRONT of the first 255 columns, read in column `j' + 1`: the source's column `j'`. -/
theorem fillThenCols_succ (X : (⟨4, ![8, 2, 256, 256]⟩ : Shape).Idx → α) (Z : (⟨4, ![8, 2, 256, 1]⟩ : Shape).Idx → α)
    (hs : (⟨4, ![8, 2, 256, 256]⟩ : Shape).Slices ![0, 0, 0, 0] ⟨4, ![8, 2, 256, 255]⟩)
    (hc : Shape.Concatenates [(⟨4, ![8, 2, 256, 1]⟩ : Shape), ⟨4, ![8, 2, 256, 255]⟩] ⟨4, ![8, 2, 256, 256]⟩ 3)
    (b : Fin 8) (cc : Fin 2) (i j j' : Fin 256) (hj : j.val = j'.val + 1) :
    concatenate ⟨4, ![8, 2, 256, 256]⟩ 3 [⟨⟨4, ![8, 2, 256, 1]⟩, Z⟩, ⟨⟨4, ![8, 2, 256, 255]⟩, extractStridedSlice ⟨4, ![8, 2, 256, 255]⟩ ![0, 0, 0, 0] X hs⟩] hc (ix4 b cc i j)
      = X (ix4 b cc i j') := by
  have hlt : j'.val < 255 := by have := j.isLt; omega
  rw [concatenate_pair_apply_right 3 _ _ hc _ rfl rfl (ix4 b cc i (⟨j'.val, hlt⟩ : Fin 255)) (fun d hd => by
    match d with
    | ⟨0, _⟩ => rfl
    | ⟨1, _⟩ => rfl
    | ⟨2, _⟩ => rfl
    | ⟨3, _⟩ => exact absurd rfl hd) (by show j'.val + 1 = j.val; omega)]
  exact extractStridedSlice_apply _ _ hs _ (ix4 b cc i j') (fun d => by
    match d with
    | ⟨0, _⟩ => exact (Nat.zero_add _).symm
    | ⟨1, _⟩ => exact (Nat.zero_add _).symm
    | ⟨2, _⟩ => exact (Nat.zero_add _).symm
    | ⟨3, _⟩ => exact (Nat.zero_add _).symm)

/-- The last 255 columns with a fill column BEHIND them, read in a column `j < 255`: the source's column `j + 1`. -/
theorem colsThenFill_lt (X : (⟨4, ![8, 2, 256, 256]⟩ : Shape).Idx → α) (Z : (⟨4, ![8, 2, 256, 1]⟩ : Shape).Idx → α)
    (hs : (⟨4, ![8, 2, 256, 256]⟩ : Shape).Slices ![0, 0, 0, 1] ⟨4, ![8, 2, 256, 255]⟩)
    (hc : Shape.Concatenates [(⟨4, ![8, 2, 256, 255]⟩ : Shape), ⟨4, ![8, 2, 256, 1]⟩] ⟨4, ![8, 2, 256, 256]⟩ 3)
    (b : Fin 8) (cc : Fin 2) (i j j' : Fin 256) (hj : j'.val = j.val + 1) :
    concatenate ⟨4, ![8, 2, 256, 256]⟩ 3 [⟨⟨4, ![8, 2, 256, 255]⟩, extractStridedSlice ⟨4, ![8, 2, 256, 255]⟩ ![0, 0, 0, 1] X hs⟩, ⟨⟨4, ![8, 2, 256, 1]⟩, Z⟩] hc (ix4 b cc i j)
      = X (ix4 b cc i j') := by
  have hlt : j.val < 255 := by have := j'.isLt; omega
  rw [concatenate_pair_apply_left 3 _ _ hc _ rfl (ix4 b cc i (⟨j.val, hlt⟩ : Fin 255)) (fun d => by
    match d with
    | ⟨0, _⟩ => rfl
    | ⟨1, _⟩ => rfl
    | ⟨2, _⟩ => rfl
    | ⟨3, _⟩ => rfl)]
  exact extractStridedSlice_apply _ _ hs _ (ix4 b cc i j') (fun d => by
    match d with
    | ⟨0, _⟩ => exact (Nat.zero_add _).symm
    | ⟨1, _⟩ => exact (Nat.zero_add _).symm
    | ⟨2, _⟩ => exact (Nat.zero_add _).symm
    | ⟨3, _⟩ => show j'.val = 1 + j.val; omega)

/-- The last 255 columns with a fill column BEHIND them, read in column 255: the fill. -/
theorem colsThenFill_last (X : (⟨4, ![8, 2, 256, 256]⟩ : Shape).Idx → α) (Z : (⟨4, ![8, 2, 256, 1]⟩ : Shape).Idx → α)
    (hs : (⟨4, ![8, 2, 256, 256]⟩ : Shape).Slices ![0, 0, 0, 1] ⟨4, ![8, 2, 256, 255]⟩)
    (hc : Shape.Concatenates [(⟨4, ![8, 2, 256, 255]⟩ : Shape), ⟨4, ![8, 2, 256, 1]⟩] ⟨4, ![8, 2, 256, 256]⟩ 3)
    (b : Fin 8) (cc : Fin 2) (i j : Fin 256) (hj : j.val = 255) :
    concatenate ⟨4, ![8, 2, 256, 256]⟩ 3 [⟨⟨4, ![8, 2, 256, 255]⟩, extractStridedSlice ⟨4, ![8, 2, 256, 255]⟩ ![0, 0, 0, 1] X hs⟩, ⟨⟨4, ![8, 2, 256, 1]⟩, Z⟩] hc (ix4 b cc i j)
      = Z (ix4 b cc i 0) :=
  concatenate_pair_apply_right 3 _ _ hc _ rfl rfl (ix4 b cc i 0) (fun d hd => by
    match d with
    | ⟨0, _⟩ => rfl
    | ⟨1, _⟩ => rfl
    | ⟨2, _⟩ => rfl
    | ⟨3, _⟩ => exact absurd rfl hd) (by show 0 + 255 = j.val; omega)

/-! ## One cell along the rows -/

/-- A fill row in FRONT of the first 255 rows, read in row 0: the fill. -/
theorem fillThenRows_zero (X : (⟨4, ![8, 2, 256, 256]⟩ : Shape).Idx → α) (Z : (⟨4, ![8, 2, 1, 256]⟩ : Shape).Idx → α)
    (hs : (⟨4, ![8, 2, 256, 256]⟩ : Shape).Slices ![0, 0, 0, 0] ⟨4, ![8, 2, 255, 256]⟩)
    (hc : Shape.Concatenates [(⟨4, ![8, 2, 1, 256]⟩ : Shape), ⟨4, ![8, 2, 255, 256]⟩] ⟨4, ![8, 2, 256, 256]⟩ 2)
    (b : Fin 8) (cc : Fin 2) (i j : Fin 256) (hi : i.val = 0) :
    concatenate ⟨4, ![8, 2, 256, 256]⟩ 2 [⟨⟨4, ![8, 2, 1, 256]⟩, Z⟩, ⟨⟨4, ![8, 2, 255, 256]⟩, extractStridedSlice ⟨4, ![8, 2, 255, 256]⟩ ![0, 0, 0, 0] X hs⟩] hc (ix4 b cc i j)
      = Z (ix4 b cc 0 j) :=
  concatenate_pair_apply_left 2 _ _ hc _ rfl (ix4 b cc 0 j) (fun d => by
    match d with
    | ⟨0, _⟩ => rfl
    | ⟨1, _⟩ => rfl
    | ⟨2, _⟩ => exact hi.symm
    | ⟨3, _⟩ => rfl)

/-- A fill row in FRONT of the first 255 rows, read in row `i' + 1`: the source's row `i'`. -/
theorem fillThenRows_succ (X : (⟨4, ![8, 2, 256, 256]⟩ : Shape).Idx → α) (Z : (⟨4, ![8, 2, 1, 256]⟩ : Shape).Idx → α)
    (hs : (⟨4, ![8, 2, 256, 256]⟩ : Shape).Slices ![0, 0, 0, 0] ⟨4, ![8, 2, 255, 256]⟩)
    (hc : Shape.Concatenates [(⟨4, ![8, 2, 1, 256]⟩ : Shape), ⟨4, ![8, 2, 255, 256]⟩] ⟨4, ![8, 2, 256, 256]⟩ 2)
    (b : Fin 8) (cc : Fin 2) (i i' j : Fin 256) (hi : i.val = i'.val + 1) :
    concatenate ⟨4, ![8, 2, 256, 256]⟩ 2 [⟨⟨4, ![8, 2, 1, 256]⟩, Z⟩, ⟨⟨4, ![8, 2, 255, 256]⟩, extractStridedSlice ⟨4, ![8, 2, 255, 256]⟩ ![0, 0, 0, 0] X hs⟩] hc (ix4 b cc i j)
      = X (ix4 b cc i' j) := by
  have hlt : i'.val < 255 := by have := i.isLt; omega
  rw [concatenate_pair_apply_right 2 _ _ hc _ rfl rfl (ix4 b cc (⟨i'.val, hlt⟩ : Fin 255) j) (fun d hd => by
    match d with
    | ⟨0, _⟩ => rfl
    | ⟨1, _⟩ => rfl
    | ⟨2, _⟩ => exact absurd rfl hd
    | ⟨3, _⟩ => rfl) (by show i'.val + 1 = i.val; omega)]
  exact extractStridedSlice_apply _ _ hs _ (ix4 b cc i' j) (fun d => by
    match d with
    | ⟨0, _⟩ => exact (Nat.zero_add _).symm
    | ⟨1, _⟩ => exact (Nat.zero_add _).symm
    | ⟨2, _⟩ => exact (Nat.zero_add _).symm
    | ⟨3, _⟩ => exact (Nat.zero_add _).symm)

/-- The last 255 rows with a fill row BEHIND them, read in a row `i < 255`: the source's row `i + 1`. -/
theorem rowsThenFill_lt (X : (⟨4, ![8, 2, 256, 256]⟩ : Shape).Idx → α) (Z : (⟨4, ![8, 2, 1, 256]⟩ : Shape).Idx → α)
    (hs : (⟨4, ![8, 2, 256, 256]⟩ : Shape).Slices ![0, 0, 1, 0] ⟨4, ![8, 2, 255, 256]⟩)
    (hc : Shape.Concatenates [(⟨4, ![8, 2, 255, 256]⟩ : Shape), ⟨4, ![8, 2, 1, 256]⟩] ⟨4, ![8, 2, 256, 256]⟩ 2)
    (b : Fin 8) (cc : Fin 2) (i i' j : Fin 256) (hi : i'.val = i.val + 1) :
    concatenate ⟨4, ![8, 2, 256, 256]⟩ 2 [⟨⟨4, ![8, 2, 255, 256]⟩, extractStridedSlice ⟨4, ![8, 2, 255, 256]⟩ ![0, 0, 1, 0] X hs⟩, ⟨⟨4, ![8, 2, 1, 256]⟩, Z⟩] hc (ix4 b cc i j)
      = X (ix4 b cc i' j) := by
  have hlt : i.val < 255 := by have := i'.isLt; omega
  rw [concatenate_pair_apply_left 2 _ _ hc _ rfl (ix4 b cc (⟨i.val, hlt⟩ : Fin 255) j) (fun d => by
    match d with
    | ⟨0, _⟩ => rfl
    | ⟨1, _⟩ => rfl
    | ⟨2, _⟩ => rfl
    | ⟨3, _⟩ => rfl)]
  exact extractStridedSlice_apply _ _ hs _ (ix4 b cc i' j) (fun d => by
    match d with
    | ⟨0, _⟩ => exact (Nat.zero_add _).symm
    | ⟨1, _⟩ => exact (Nat.zero_add _).symm
    | ⟨2, _⟩ => show i'.val = 1 + i.val; omega
    | ⟨3, _⟩ => exact (Nat.zero_add _).symm)

/-- The last 255 rows with a fill row BEHIND them, read in row 255: the fill. -/
theorem rowsThenFill_last (X : (⟨4, ![8, 2, 256, 256]⟩ : Shape).Idx → α) (Z : (⟨4, ![8, 2, 1, 256]⟩ : Shape).Idx → α)
    (hs : (⟨4, ![8, 2, 256, 256]⟩ : Shape).Slices ![0, 0, 1, 0] ⟨4, ![8, 2, 255, 256]⟩)
    (hc : Shape.Concatenates [(⟨4, ![8, 2, 255, 256]⟩ : Shape), ⟨4, ![8, 2, 1, 256]⟩] ⟨4, ![8, 2, 256, 256]⟩ 2)
    (b : Fin 8) (cc : Fin 2) (i j : Fin 256) (hi : i.val = 255) :
    concatenate ⟨4, ![8, 2, 256, 256]⟩ 2 [⟨⟨4, ![8, 2, 255, 256]⟩, extractStridedSlice ⟨4, ![8, 2, 255, 256]⟩ ![0, 0, 1, 0] X hs⟩, ⟨⟨4, ![8, 2, 1, 256]⟩, Z⟩] hc (ix4 b cc i j)
      = Z (ix4 b cc 0 j) :=
  concatenate_pair_apply_right 2 _ _ hc _ rfl rfl (ix4 b cc 0 j) (fun d hd => by
    match d with
    | ⟨0, _⟩ => rfl
    | ⟨1, _⟩ => rfl
    | ⟨2, _⟩ => exact absurd rfl hd
    | ⟨3, _⟩ => rfl) (by show 0 + 255 = i.val; omega)

/-! ## A per-batch weight spread over the block -/

/-- A column [8, 1] viewed as [8], then as [8, 1, 1, 1], then spread over [8, 2, 256, 256], read at an entry
    with batch coordinate `b`: the column's entry `b`. -/
theorem weight_apply (v : (⟨2, ![8, 1]⟩ : Shape).Idx → α)
    (h1 : (⟨2, ![8, 1]⟩ : Shape).ShapeCasts ⟨1, ![8]⟩) (h2 : (⟨1, ![8]⟩ : Shape).ShapeCasts ⟨4, ![8, 1, 1, 1]⟩)
    (h3 : (⟨4, ![8, 1, 1, 1]⟩ : Shape).Broadcasts ⟨4, ![8, 2, 256, 256]⟩)
    (b : Fin 8) (cc : Fin 2) (i j : Fin 256) :
    broadcastTo ⟨4, ![8, 2, 256, 256]⟩ (shapeCast ⟨4, ![8, 1, 1, 1]⟩ (shapeCast ⟨1, ![8]⟩ v h1) h2) h3 (ix4 b cc i j)
      = v (ix2 b 0) := by
  rw [broadcastTo_apply _ h3 _ (ix4 b 0 0 0) (fun a => by
    match a with
    | ⟨0, _⟩ => show b.val = if (8 : Nat) = 1 then 0 else b.val; rw [if_neg (by decide)]
    | ⟨1, _⟩ => rfl
    | ⟨2, _⟩ => rfl
    | ⟨3, _⟩ => rfl)]
  rw [shapeCast_apply _ h2 _ (ix1 b) (by
    rw [Shape.rowMajor_val_one, Shape.rowMajor_val_four]
    show b.val = ((b.val * 1 + 0) * 1 + 0) * 1 + 0
    omega)]
  exact shapeCast_apply _ h1 _ (ix2 b 0) (by
    rw [Shape.rowMajor_val_two, Shape.rowMajor_val_one]
    show b.val * 1 + 0 = b.val
    omega)

end Cert.DynConv
-- ==== Proof.ConvBody.lean ====
/-
  What the convolution body stores, read at an entry, at the extended reals.

  The body holds a block `X` of shape [8, 2, 256, 256] and the [8, 9] table of weights.  It forms the
  block moved one column either way with zero fill, combines the three column positions with a
  row's three weights, moves the first and the third of those row sums one row down and one row up
  with zero fill, and adds the three from zero.  With the plane `(i, j) ↦ X (b, c, i, j)` read with a
  border of zeros, each moved block is the bordered plane at a shifted position — a fill cell is a
  border cell —, so the stored entry is the window sum taken row by row.
-/
import proofs.«144171_j87892210745472_2_alg».proof.Proof.Gen.KernelIdeal.Frame
import proofs.«144171_j87892210745472_2_alg».proof.Proof.WindowSum
import proofs.«144171_j87892210745472_2_alg».proof.Proof.ConvLayout
import Idealize.ShloMosaic.PureOps.Ideal.Laws

set_option maxRecDepth 16384

noncomputable section

namespace Cert.KernelIdeal.ConvBody

open Cert.KernelIdeal Cert.KernelIdeal.Gen Cert.DynConv
open Idealize.ShloMosaic Idealize.ShloMosaic.ValueIdx

/-- The plane of a block at batch `b` and channel `cc`. -/
abbrev plane (X : FVec Ideal S8x2x256x256 .f32) (b : Fin 8) (cc : Fin 2) : Fin 256 → Fin 256 → EReal :=
  fun i j => X (ix4 b cc i j)

/-- A zero splat reads zero. -/
theorem zeroSplat_apply (s : Shape) (y : s.Idx) :
    broadcast s (Scalar.ofBits (F := Ideal) .f32 0x00000000#32) y = (0 : EReal) := Ideal.ofBits_zero_f32

/-- The block itself is the bordered plane one cell in from the corner. -/
theorem center_apply (X : FVec Ideal S8x2x256x256 .f32) (b : Fin 8) (cc : Fin 2) (i j : Fin 256) :
    X (ix4 b cc i j) = bordered (plane X b cc) (i.val + 1) (j.val + 1) :=
  (bordered_inside (plane X b cc) _ _ i j rfl rfl).symm

/-- The block moved one column to the right, zero in column 0: the bordered plane at `(i + 1, j)`. -/
theorem movedRight_apply (X : FVec Ideal S8x2x256x256 .f32) (b : Fin 8) (cc : Fin 2) (i j : Fin 256) :
    k1_pay2 (F := Ideal) X (ix4 b cc i j) = bordered (plane X b cc) (i.val + 1) j.val := by
  unfold k1_pay2
  by_cases hj : j.val = 0
  · refine (fillThenCols_zero X _ _ _ b cc i j hj).trans ?_
    rw [hj]
    exact (zeroSplat_apply _ _).trans (bordered_outside _ _ _ (Or.inr (Or.inr (Or.inl rfl)))).symm
  · have hlt := j.isLt
    refine (fillThenCols_succ X _ _ _ b cc i j ⟨j.val - 1, by omega⟩ (by show j.val = j.val - 1 + 1; omega)).trans ?_
    exact (bordered_inside (plane X b cc) _ _ i ⟨j.val - 1, by omega⟩ rfl (by show j.val = j.val - 1 + 1; omega)).symm

/-- The block moved one column to the left, zero in column 255: the bordered plane at `(i + 1, j + 2)`. -/
theorem movedLeft_apply (X : FVec Ideal S8x2x256x256 .f32) (b : Fin 8) (cc : Fin 2) (i j : Fin 256) :
    k1_pay3 (F := Ideal) X (ix4 b cc i j) = bordered (plane X b cc) (i.val + 1) (j.val + 2) := by
  unfold k1_pay3
  have hlt := j.isLt
  by_cases hj : j.val = 255
  · refine (colsThenFill_last X _ _ _ b cc i j hj).trans ?_
    exact (zeroSplat_apply _ _).trans (bordered_outside _ _ _ (Or.inr (Or.inr (Or.inr (by omega))))).symm
  · refine (colsThenFill_lt X _ _ _ b cc i j ⟨j.val + 1, by omega⟩ rfl).trans ?_
    exact (bordered_inside (plane X b cc) _ _ i ⟨j.val + 1, by omega⟩ rfl rfl).symm

/-- A weight column loaded from column `p` of the table reads the table's entry `(b, p)`. -/
theorem weightLoad_apply (x0 : Vec Ideal S8x9 .f32) (p : Nat) (hp : p < 9)
    (inb : ∀ a, (![0, p] : Fin 2 → Nat) a + S8x1.size a ≤ S8x9.size a) (b : Fin 8) :
    View.ld x0 (Rect.unit (s := S8x9) ![0, p] S8x1.size inb) (ix2 b 0) = x0 (ix2 b ⟨p, hp⟩) :=
  congrArg x0 (funext fun a => Fin.ext (by
    match a with
    | ⟨0, _⟩ => show 0 + 1 * b.val = b.val; omega
    | ⟨1, _⟩ => show p + 1 * 0 = p; omega))

/-- One row of the window on the block: three weight columns against the three column positions. -/
theorem rowSum_apply (X : FVec Ideal S8x2x256x256 .f32) (w0 w1 w2 : Vec Ideal S8x1 .f32) (b : Fin 8) (cc : Fin 2) (i j : Fin 256) :
    addf (addf (mulf (broadcastTo S8x2x256x256 (shapeCast S8x1x1x1 (shapeCast S8 w0 shapeCasts_S8x1_S8) shapeCasts_S8_S8x1x1x1) broadcasts_S8x1x1x1_S8x2x256x256) (k1_pay2 (F := Ideal) X))
        (mulf (broadcastTo S8x2x256x256 (shapeCast S8x1x1x1 (shapeCast S8 w1 shapeCasts_S8x1_S8) shapeCasts_S8_S8x1x1x1) broadcasts_S8x1x1x1_S8x2x256x256) X))
      (mulf (broadcastTo S8x2x256x256 (shapeCast S8x1x1x1 (shapeCast S8 w2 shapeCasts_S8x1_S8) shapeCasts_S8_S8x1x1x1) broadcasts_S8x1x1x1_S8x2x256x256) (k1_pay3 (F := Ideal) X)) (ix4 b cc i j)
      = row3 (w0 (ix2 b 0)) (w1 (ix2 b 0)) (w2 (ix2 b 0)) (bordered (plane X b cc)) (i.val + 1) j.val := by
  unfold row3
  exact congrArg₂ (· + ·) (congrArg₂ (· + ·)
      (congrArg₂ (· * ·) (weight_apply w0 _ _ _ b cc i j) (movedRight_apply X b cc i j))
      (congrArg₂ (· * ·) (weight_apply w1 _ _ _ b cc i j) (center_apply X b cc i j)))
    (congrArg₂ (· * ·) (weight_apply w2 _ _ _ b cc i j) (movedLeft_apply X b cc i j))

/-- The first row sum moved one row down, zero in row 0, added to the zero splat: the window's first row. -/
theorem firstRow_apply (X : FVec Ideal S8x2x256x256 .f32) (v8 v11 v14 : Vec Ideal S8x1 .f32) (b : Fin 8) (cc : Fin 2) (i j : Fin 256) :
    k1_pay4 (F := Ideal) X v8 v11 v14 (ix4 b cc i j)
      = 0 + row3 (v8 (ix2 b 0)) (v11 (ix2 b 0)) (v14 (ix2 b 0)) (bordered (plane X b cc)) i.val j.val := by
  unfold k1_pay4
  refine congrArg₂ (· + ·) (zeroSplat_apply _ _) ?_
  have hlt := i.isLt
  by_cases hi : i.val = 0
  · refine (fillThenRows_zero _ _ _ _ b cc i j hi).trans ?_
    exact (zeroSplat_apply _ _).trans
      (row3_of_zero_row _ _ _ _ _ _ (fun j' => bordered_outside _ _ _ (Or.inl hi))).symm
  · obtain ⟨i', hi'⟩ : ∃ i' : Fin 256, i.val = i'.val + 1 :=
      ⟨⟨i.val - 1, by omega⟩, by show i.val = i.val - 1 + 1; omega⟩
    refine (fillThenRows_succ _ _ _ _ b cc i i' j hi').trans ?_
    rw [hi']
    exact rowSum_apply X v8 v11 v14 b cc i' j

/-- The third row sum moved one row up, zero in row 255: the window's third row. -/
theorem thirdRow_apply (X : FVec Ideal S8x2x256x256 .f32) (w0 w1 w2 : Vec Ideal S8x1 .f32) (b : Fin 8) (cc : Fin 2) (i j : Fin 256) :
    concatenate S8x2x256x256 2 [⟨S8x2x255x256, extractStridedSlice S8x2x255x256 ![0, 0, 1, 0]
        (addf (addf (mulf (broadcastTo S8x2x256x256 (shapeCast S8x1x1x1 (shapeCast S8 w0 shapeCasts_S8x1_S8) shapeCasts_S8_S8x1x1x1) broadcasts_S8x1x1x1_S8x2x256x256) (k1_pay2 (F := Ideal) X))
            (mulf (broadcastTo S8x2x256x256 (shapeCast S8x1x1x1 (shapeCast S8 w1 shapeCasts_S8x1_S8) shapeCasts_S8_S8x1x1x1) broadcasts_S8x1x1x1_S8x2x256x256) X))
          (mulf (broadcastTo S8x2x256x256 (shapeCast S8x1x1x1 (shapeCast S8 w2 shapeCasts_S8x1_S8) shapeCasts_S8_S8x1x1x1) broadcasts_S8x1x1x1_S8x2x256x256) (k1_pay3 (F := Ideal) X)))
        slices_S8x2x256x256_o0_0_1_0_S8x2x255x256⟩,
      ⟨S8x2x1x256, broadcast S8x2x1x256 (Scalar.ofBits (F := Ideal) .f32 0x00000000#32)⟩] concatenates_S8x2x255x256_S8x2x1x256_S8x2x256x256_d2 (ix4 b cc i j)
      = row3 (w0 (ix2 b 0)) (w1 (ix2 b 0)) (w2 (ix2 b 0)) (bordered (plane X b cc)) (i.val + 2) j.val := by
  have hlt := i.isLt
  by_cases hi : i.val = 255
  · refine (rowsThenFill_last _ _ _ _ b cc i j hi).trans ?_
    exact (zeroSplat_apply _ _).trans
      (row3_of_zero_row _ _ _ _ _ _ (fun j' => bordered_outside _ _ _ (Or.inr (Or.inl (by omega))))).symm
  · refine (rowsThenFill_lt _ _ _ _ b cc i ⟨i.val + 1, by omega⟩ j rfl).trans ?_
    exact rowSum_apply X w0 w1 w2 b cc ⟨i.val + 1, by omega⟩ j

/-- The stored block, entry by entry: the three rows of the window added from zero. -/
theorem store_apply (X : FVec Ideal S8x2x256x256 .f32) (v8 v11 v14 v29 v32 v35 v47 v50 v53 : Vec Ideal S8x1 .f32)
    (b : Fin 8) (cc : Fin 2) (i j : Fin 256) :
    k1_pay1 (F := Ideal) X (k1_pay2 X) (k1_pay3 X) (k1_pay4 X v8 v11 v14) (k1_pay5 v32) (k1_pay6 v35) (k1_pay7 v29) v47 v50 v53 (ix4 b cc i j)
      = 0 + row3 (v8 (ix2 b 0)) (v11 (ix2 b 0)) (v14 (ix2 b 0)) (bordered (plane X b cc)) i.val j.val
          + row3 (v29 (ix2 b 0)) (v32 (ix2 b 0)) (v35 (ix2 b 0)) (bordered (plane X b cc)) (i.val + 1) j.val
          + row3 (v47 (ix2 b 0)) (v50 (ix2 b 0)) (v53 (ix2 b 0)) (bordered (plane X b cc)) (i.val + 2) j.val := by
  unfold k1_pay1
  exact congrArg₂ (· + ·) (congrArg₂ (· + ·) (firstRow_apply X v8 v11 v14 b cc i j) (rowSum_apply X v29 v32 v35 b cc i j))
    (thirdRow_apply X v47 v50 v53 b cc i j)

theorem hz4 : (![0, 0, 0, 0] : Fin 4 → Nat) = fun _ => 0 := funext fun a => by fin_cases a <;> rfl

/-- WHAT THE BODY LEAVES in the output block, from the table of weights `x0` and the input block `x1`:
    at `(b, c, i, j)` the window sum, taken row by row, of the bordered plane `(b, c)` of the block against
    row `b` of the table. -/
theorem out_apply (x0 : Vec Ideal S8x9 .f32) (x1 : Vec Ideal S8x2x256x256 .f32) (b : Fin 8) (cc : Fin 2) (i j : Fin 256) :
    out1_2 (F := Ideal) x0 x1 (ix4 b cc i j)
      = windowRows (fun p => x0 (ix2 b p)) (bordered (plane x1 b cc)) i.val j.val := by
  unfold out1_2
  rw [View.canon_unit_zero hz4]
  simp only [View.ld_unit_zero (S := S8x2x256x256) hz4]
  refine (store_apply x1 _ _ _ _ _ _ _ _ _ b cc i j).trans ?_
  unfold windowRows
  rw [weightLoad_apply x0 0 (by decide) _ b, weightLoad_apply x0 1 (by decide) _ b, weightLoad_apply x0 2 (by decide) _ b,
    weightLoad_apply x0 3 (by decide) _ b, weightLoad_apply x0 4 (by decide) _ b, weightLoad_apply x0 5 (by decide) _ b,
    weightLoad_apply x0 6 (by decide) _ b, weightLoad_apply x0 7 (by decide) _ b, weightLoad_apply x0 8 (by decide) _ b]
  rfl

end Cert.KernelIdeal.ConvBody

end
-- ==== Proof.ConvArray.lean ====
/-
  The convolution launch: from the blocks its grid points write to the whole result array.

  Grid point `t` (of 48) handles channels `2 t` and `2 t + 1`: it reads the whole [8, 9] table of
  weights and the block of the input at those two channels, and writes the block of the result at
  the same place.  What it writes is the window sum of each plane of its block, which is the
  window sum of the corresponding plane of the whole input; the 48 blocks tile the result array,
  so the array ends holding, at every `(b, c, i, j)`, the window sum of plane `(b, c)` of the input
  against row `b` of the table.
-/
import proofs.«144171_j87892210745472_2_alg».proof.Proof.Gen.KernelIdeal.Frame
import proofs.«144171_j87892210745472_2_alg».proof.Proof.ConvBody
import Idealize.ShloMosaic.Lib.Pipeline.Value

set_option maxRecDepth 16384

noncomputable section

namespace Cert.KernelIdeal.ConvArray

open Cert.KernelIdeal Cert.KernelIdeal.Gen Cert.DynConv Cert.KernelIdeal.ConvBody
open Idealize.ShloMosaic Idealize.ShloMosaic.TcCoe Idealize.ShloMosaic.ValueIdx
open Idealize.SL Idealize.SL.Sem
open Idealize.ShloMosaic.Pipeline (Dat)

/-- The result at `(b, c, i, j)`: the nine products of the bordered plane `(b, c)` of `x` against row `b`
    of the table `kw`, added one at a time from zero in row-major order of the window. -/
def convAt (kw : S8x9.Idx → EReal) (x : S8x96x256x256.Idx → EReal) (b : Fin 8) (c : Fin 96) (i j : Fin 256) : EReal :=
  windowTaps (fun p => kw (ix2 b p)) (bordered (fun i j => x (ix4 b c i j))) i.val j.val

/-- The whole result array as one function of the table and the input. -/
def conv (kw : S8x9.Idx → EReal) (x : S8x96x256x256.Idx → EReal) : S8x96x256x256.Idx → EReal :=
  fun y => convAt kw x (y 0) (y 1) (y 2) (y 3)

/-- An entry of a written block, when the block's table and planes are the whole arrays' (`hk`, `hx`). -/
theorem blk_entry (kw : S8x9.Idx → EReal) (x : S8x96x256x256.Idx → EReal) (kwb : Vec Ideal S8x9 .f32)
    (xb : Vec Ideal S8x2x256x256 .f32) (b : Fin 8) (cc : Fin 2) (i j : Fin 256) (c' : Fin 96)
    (hk : ∀ p : Fin 9, kwb (ix2 b p) = kw (ix2 b p))
    (hx : ∀ i j : Fin 256, xb (ix4 b cc i j) = x (ix4 b c' i j)) :
    out1_2 (F := Ideal) kwb xb (ix4 b cc i j) = convAt kw x b c' i j := by
  refine (out_apply kwb xb b cc i j).trans ?_
  refine (windowRows_eq_windowTaps _ _ _ _).trans ?_
  unfold convAt
  have e1 : (fun p => kwb (ix2 b p)) = fun p => kw (ix2 b p) := funext hk
  have e2 : plane xb b cc = fun i j => x (ix4 b c' i j) := funext fun i => funext fun j => hx i j
  rw [e1, e2]

variable (V : (c : Dev nD) → (b : Ref sig .tc) → Buf (Elt Ideal) ((c : Thread nD τ).loc b))

/-- The printed index maps, decided over the grid: the table's one block, and channel block `t` of the input
    and of the result at point `t`. -/
theorem idx_facts : ∀ t : Fin cfg1.N, win1_0.index t (0 : Fin 2) = 0 ∧ win1_0.index t (1 : Fin 2) = 0
    ∧ win1_1.index t (0 : Fin 4) = 0 ∧ win1_1.index t (1 : Fin 4) = t.val
    ∧ win1_1.index t (2 : Fin 4) = 0 ∧ win1_1.index t (3 : Fin 4) = 0
    ∧ win1_2.index t (0 : Fin 4) = 0 ∧ win1_2.index t (1 : Fin 4) = t.val
    ∧ win1_2.index t (2 : Fin 4) = 0 ∧ win1_2.index t (3 : Fin 4) = 0 :=
  (by decide +kernel : ∀ t : Fin grid1.N, _)

/-- An entry of what point `t` writes back is the result function at the entry's place in the array. -/
theorem flushed_entry (c : Dev nD) (t : Fin cfg1.N) (b : Fin 8) (cc : Fin 2) (i j : Fin 256) :
    out1_2 (F := Ideal) (iblk1 V c 0 t) (iblk1 V c 1 t) (ix4 b cc i j)
      = conv (V c main_v23) (V c main_arg0) (((cfg1.win 2).blk t).view.emb (ix4 b cc i j)) := by
  obtain ⟨e0, e1, e2, e3, e4, e5, e6, e7, e8, e9⟩ := idx_facts t
  have ht : t.val < 48 := Nat.lt_of_lt_of_eq t.isLt N_1
  have hb := b.isLt
  have hcc := cc.isLt
  have hi := i.isLt
  have hj := j.isLt
  have hE : ((cfg1.win 2).blk t).view.emb (ix4 b cc i j) = ix4 b (⟨2 * t.val + cc.val, by omega⟩ : Fin 96) i j :=
    funext fun a => Fin.ext (by
      match a with
      | ⟨0, _⟩ => show win1_2.index t (0 : Fin 4) * 8 + 1 * b.val = b.val; omega
      | ⟨1, _⟩ => show win1_2.index t (1 : Fin 4) * 2 + 1 * cc.val = 2 * t.val + cc.val; omega
      | ⟨2, _⟩ => show win1_2.index t (2 : Fin 4) * 256 + 1 * i.val = i.val; omega
      | ⟨3, _⟩ => show win1_2.index t (3 : Fin 4) * 256 + 1 * j.val = j.val; omega)
  rw [hE]
  refine blk_entry (V c main_v23) (V c main_arg0) (iblk1 V c 0 t) (iblk1 V c 1 t) b cc i j ⟨2 * t.val + cc.val, by omega⟩ ?_ ?_
  · intro p
    have hp := p.isLt
    show V c (Pipeline.arrRef spec1 0) (((cfg1.win 0).blk t).view.emb (ix2 b p)) = V c main_v23 (ix2 b p)
    refine congrArg (V c main_v23) (funext fun a => Fin.ext ?_)
    match a with
    | ⟨0, _⟩ => show win1_0.index t (0 : Fin 2) * 8 + 1 * b.val = b.val; omega
    | ⟨1, _⟩ => show win1_0.index t (1 : Fin 2) * 9 + 1 * p.val = p.val; omega
  · intro i' j'
    have hi' := i'.isLt
    have hj' := j'.isLt
    show V c (Pipeline.arrRef spec1 1) (((cfg1.win 1).blk t).view.emb (ix4 b cc i' j')) = V c main_arg0 (ix4 b ⟨2 * t.val + cc.val, by omega⟩ i' j')
    refine congrArg (V c main_arg0) (funext fun a => Fin.ext ?_)
    match a with
    | ⟨0, _⟩ => show win1_1.index t (0 : Fin 4) * 8 + 1 * b.val = b.val; omega
    | ⟨1, _⟩ => show win1_1.index t (1 : Fin 4) * 2 + 1 * cc.val = 2 * t.val + cc.val; omega
    | ⟨2, _⟩ => show win1_1.index t (2 : Fin 4) * 256 + 1 * i'.val = i'.val; omega
    | ⟨3, _⟩ => show win1_1.index t (3 : Fin 4) * 256 + 1 * j'.val = j'.val; omega

/-- WHAT POINT `t` WRITES BACK is block `t` of the result function of the table and the input as the launch
    finds them. -/
theorem flushed_eq (c : Dev nD) (t : Fin cfg1.N) :
    (dat1 V c).flushed 2 t = ((cfg1.win 2).blk t).view.read (Elt Ideal) (conv (V c main_v23) (V c main_arg0)) := by
  show (cfg1.win 2).cut (grid1.coords t) ((dat1 V c).after 2 t) = _
  rw [after1_2]
  refine funext fun y => ?_
  revert y
  show ∀ y : S8x2x256x256.Idx, out1_2 (F := Ideal) (iblk1 V c 0 t) (iblk1 V c 1 t) y
      = conv (V c main_v23) (V c main_arg0) (((cfg1.win 2).blk t).view.emb y)
  intro y
  obtain ⟨b, cc, i, j, rfl⟩ : ∃ (b : Fin 8) (cc : Fin 2) (i j : Fin 256), y = ix4 b cc i j := ⟨y 0, y 1, y 2, y 3, eq_ix4 y⟩
  exact flushed_entry V c t b cc i j

/-- An index of the array is in point `t`'s block iff each coordinate is in the block's range on its axis. -/
theorem mem_blk (t : Fin cfg1.N) (i : S8x96x256x256.Idx) :
    i ∈ ((cfg1.win 2).blk t).view.set ↔ ∀ a : Fin 4, win1_2.index t a * S8x2x256x256.size a ≤ (i a).val
      ∧ (i a).val < win1_2.index t a * S8x2x256x256.size a + S8x2x256x256.size a := by
  show i ∈ ((View.whole main_v24).slice (win1_2.rect t)).set ↔ _
  rw [View.set_slice_whole, Rect.mem_set_unit]
  exact Iff.rfl

/-- Every index of the result array is in the block of the point that handles its channel pair. -/
theorem cover (i : S8x96x256x256.Idx) :
    ∃ t : Fin cfg1.N, (cfg1.win 2).flush t = true ∧ i ∈ ((cfg1.win 2).blk t).view.set := by
  have h0 : (i 0).val < 8 := (i 0).isLt
  have h1 : (i 1).val < 96 := (i 1).isLt
  have h2 : (i 2).val < 256 := (i 2).isLt
  have h3 : (i 3).val < 256 := (i 3).isLt
  have hN : (i 1).val / 2 < cfg1.N := Nat.lt_of_lt_of_eq (by omega : (i 1).val / 2 < 48) N_1.symm
  refine ⟨⟨(i 1).val / 2, hN⟩, flush1_2 _, ?_⟩
  rw [mem_blk]
  obtain ⟨e0, e1, e2, e3, e4, e5, e6, e7, e8, e9⟩ := idx_facts ⟨(i 1).val / 2, hN⟩
  have e7' : win1_2.index ⟨(i 1).val / 2, hN⟩ (1 : Fin 4) = (i 1).val / 2 := e7
  intro a
  match a with
  | ⟨0, _⟩ => show win1_2.index ⟨(i 1).val / 2, hN⟩ (0 : Fin 4) * 8 ≤ (i 0).val ∧ (i 0).val < win1_2.index ⟨(i 1).val / 2, hN⟩ (0 : Fin 4) * 8 + 8; omega
  | ⟨1, _⟩ => show win1_2.index ⟨(i 1).val / 2, hN⟩ (1 : Fin 4) * 2 ≤ (i 1).val ∧ (i 1).val < win1_2.index ⟨(i 1).val / 2, hN⟩ (1 : Fin 4) * 2 + 2; omega
  | ⟨2, _⟩ => show win1_2.index ⟨(i 1).val / 2, hN⟩ (2 : Fin 4) * 256 ≤ (i 2).val ∧ (i 2).val < win1_2.index ⟨(i 1).val / 2, hN⟩ (2 : Fin 4) * 256 + 256; omega
  | ⟨3, _⟩ => show win1_2.index ⟨(i 1).val / 2, hN⟩ (3 : Fin 4) * 256 ≤ (i 3).val ∧ (i 3).val < win1_2.index ⟨(i 1).val / 2, hN⟩ (3 : Fin 4) * 256 + 256; omega

/-- THE RESULT ARRAY after the launch: the result function of the table and the input as the launch finds them. -/
theorem final (c : Dev nD) : (dat1 V c).arrAt 2 cfg1.N = conv (V c main_v23) (V c main_arg0) :=
  (dat1 V c).arrAt_eq_of_cover 2 _ (fun t _ => flushed_eq V c t) (cover)

end Cert.KernelIdeal.ConvArray

end
-- ==== Proof.LibBlockSum.lean ====
/-
  Regrouping a finite sum into consecutive blocks.

  A sum over `Fin (n * b)` is the sum, over the `n` blocks, of each block's `b` consecutive terms: entry
  `q + b * j` is term `q` of block `j`. Only commutativity and associativity of `+` are used, so the law
  holds in every additive commutative monoid — in particular on the extended reals, where regrouping a sum
  needs no finiteness of its terms.
-/
import Mathlib.Data.Fintype.BigOperators
import Mathlib.Logic.Equiv.Fin.Basic

namespace Cert.BlockSum

/-- A sum over `Fin (n * b)` split into `n` consecutive blocks of length `b`. -/
theorem sum_blocks {M : Type*} [AddCommMonoid M] (n b : ℕ) (f : Fin (n * b) → M) :
    ∑ k, f k = ∑ j : Fin n, ∑ q : Fin b, f (finProdFinEquiv (j, q)) := by
  rw [← Fintype.sum_prod_type' (fun j q => f (finProdFinEquiv (j, q)))]
  exact (Equiv.sum_comp finProdFinEquiv f).symm

/-- The position of term `q` of block `j`. -/
theorem finProdFinEquiv_val {n b : ℕ} (j : Fin n) (q : Fin b) :
    (finProdFinEquiv (j, q)).val = q.val + b * j.val := rfl

end Cert.BlockSum
-- ==== Proof.LibPlanes.lean ====
/-
  A sum taken over the LAST TWO axes of a rank-4 array, read at a pair.

  For an array `x` of shape `[a, b, c, d]`, the reduction by addition over axes 2 and 3 is the `[a, b]` array whose
  entry `(p, q)` collects every `x (p, q, l, k)`: the indices that drop to `(p, q)` are exactly the quadruples with
  first coordinates `p, q`, and they are in bijection with the pairs `(l, k)`. So the entry is the double sum over
  `l` and over `k`, in any additive commutative monoid and for all extents; at the extended reals this is what the
  host's `stablehlo.reduce` with an add body over those two axes (a `jnp.sum` or `jnp.mean` over `axis=(2, 3)`)
  leaves, the initial value added in front, whatever infinities the terms hold.
-/
import Idealize.ShloMosaic.Lib.ValueIdx
import Idealize.ShloMosaic.PureOps.Reduce
import Idealize.ShloMosaic.PureOps.Ideal.Laws

noncomputable section

namespace Cert.LibPlanes

open Idealize.ShloMosaic Idealize.ShloMosaic.ValueIdx

/-- The entry `(p, q, l, k)` drops, on the two last axes, to `(p, q)`. -/
theorem drop_ix4 {a b c d : ℕ} (h : (⟨4, ![a, b, c, d]⟩ : Shape).ReducesTo [2, 3] ⟨2, ![a, b]⟩)
    (p : Fin a) (q : Fin b) (l : Fin c) (k : Fin d) : h.drop (ix4 p q l k) = ix2 p q := by
  funext e
  match e with
  | ⟨0, _⟩ => exact Fin.ext rfl
  | ⟨1, _⟩ => exact Fin.ext rfl

/-- An entry that drops to `j` has `j`'s two coordinates first. -/
theorem eq_ix4_of_drop {a b c d : ℕ} (h : (⟨4, ![a, b, c, d]⟩ : Shape).ReducesTo [2, 3] ⟨2, ![a, b]⟩)
    (i : (⟨4, ![a, b, c, d]⟩ : Shape).Idx) (j : (⟨2, ![a, b]⟩ : Shape).Idx) (hi : h.drop i = j) :
    i = ix4 (j 0) (j 1) (i 2) (i 3) := by
  have h0 : i 0 = j 0 := Fin.ext (by rw [← hi]; rfl)
  have h1 : i 1 = j 1 := Fin.ext (by rw [← hi]; rfl)
  rw [← h0, ← h1]; exact eq_ix4 i

/-- The sum of the entries that drop to `j` is the double sum over the plane at `j`. -/
theorem sum_filter_drop_planes {M : Type*} [AddCommMonoid M] {a b c d : ℕ}
    (h : (⟨4, ![a, b, c, d]⟩ : Shape).ReducesTo [2, 3] ⟨2, ![a, b]⟩)
    (x : (⟨4, ![a, b, c, d]⟩ : Shape).Idx → M) (j : (⟨2, ![a, b]⟩ : Shape).Idx) :
    ∑ i ∈ Finset.univ.filter (fun i => h.drop i = j), x i = ∑ l : Fin c, ∑ k : Fin d, x (ix4 (j 0) (j 1) l k) := by
  rw [← Fintype.sum_prod_type' (f := fun (l : Fin c) (k : Fin d) => x (ix4 (j 0) (j 1) l k))]
  refine Finset.sum_bij' (fun i _ => ((i 2, i 3) : Fin c × Fin d)) (fun r _ => ix4 (j 0) (j 1) r.1 r.2) ?_ ?_ ?_ ?_ ?_
  · intro i _; exact Finset.mem_univ _
  · intro r _
    refine Finset.mem_filter.2 ⟨Finset.mem_univ _, ?_⟩
    exact (drop_ix4 h (j 0) (j 1) r.1 r.2).trans (eq_ix2 j).symm
  · intro i hi
    exact (eq_ix4_of_drop h i j (Finset.mem_filter.1 hi).2).symm
  · intro r _; rfl
  · intro i hi
    exact congrArg x (eq_ix4_of_drop h i j (Finset.mem_filter.1 hi).2)

/-- The host's float sum over the two last axes of `[a, b, c, d]`, read at `(p, q)` at the extended reals: the
    initial value plus the double sum over the plane `(p, q)`. -/
theorem hostReduceAdd_planes {a b c d : ℕ} (h : (⟨4, ![a, b, c, d]⟩ : Shape).ReducesTo [2, 3] ⟨2, ![a, b]⟩)
    (x : (⟨4, ![a, b, c, d]⟩ : Shape).Idx → EReal) (init : EReal) (p : Fin a) (q : Fin b) :
    Ideal.hostReduceAdd h x init (ix2 p q) = init + ∑ l : Fin c, ∑ k : Fin d, x (ix4 p q l k) := by
  unfold Ideal.hostReduceAdd
  exact congrArg₂ (· + ·) rfl (sum_filter_drop_planes h x (ix2 p q))

end Cert.LibPlanes

end
-- ==== Proof.PlaneSum.lean ====
/-
  The mean of a 256 × 256 plane, taken two ways, with no program in sight.

  A sum over 256 rows is the sum of four
  runs of 64 consecutive rows, added left to right from zero: only commutativity and
  associativity of addition are used, so on the extended reals the regrouping needs no finiteness
  of the terms.  The mean over the 256 · 256 = 65536 entries can be taken by multiplying with
  2⁻¹⁶ or by dividing by 65536: for every extended real the quotient by a non-zero real is the
  product with its inverse.
-/
import Idealize.ShloMosaic.Lib.ValueIdx
import Idealize.ShloMosaic.PureOps.Reduce
import Idealize.ShloMosaic.PureOps.Ideal.Laws
import proofs.«144171_j87892210745472_2_alg».proof.Proof.LibBlockSum
import proofs.«144171_j87892210745472_2_alg».proof.Proof.LibPlanes

noncomputable section

namespace Cert.DynConv

open Idealize.ShloMosaic Idealize.ShloMosaic.ValueIdx

/-! ## 256 rows as four runs of 64 -/

/-- A sum over 256 rows is the sum of its four runs of 64 consecutive rows, added from zero. -/
theorem sum_rows_four_runs {M : Type*} [AddCommMonoid M] (f : Fin 256 → M) (g : Fin 4 → Fin 64 → M)
    (hg : ∀ (q : Fin 4) (r : Fin 64), g q r = f ⟨64 * q.val + r.val, by have := q.isLt; have := r.isLt; omega⟩) :
    ∑ hh : Fin 256, f hh = (((0 + ∑ r, g 0 r) + ∑ r, g 1 r) + ∑ r, g 2 r) + ∑ r, g 3 r := by
  have e : ∀ q : Fin 4, ∑ r : Fin 64, f (finProdFinEquiv (q, r)) = ∑ r, g q r := fun q =>
    Finset.sum_congr rfl fun r _ => by
      rw [hg]
      exact congrArg f (Fin.ext (by
        show (finProdFinEquiv (q, r)).val = 64 * q.val + r.val
        rw [Cert.BlockSum.finProdFinEquiv_val]; omega))
  rw [Cert.BlockSum.sum_blocks 4 64 f, Fin.sum_univ_four, e 0, e 1, e 2, e 3, zero_add]

/-! ## The mean of 65536 entries -/

/-- The f32 word `0x37800000` is 2⁻¹⁶ = 1/65536. -/
theorem ofBits_inv65536 : Ideal.ofBits .f32 0x37800000#32 = (((1 : ℝ) / 65536 : ℝ) : EReal) := by
  simp [Ideal.ofBits, Ideal.ieee, -EReal.coe_mul]; norm_num

/-- The f32 word `0x47800000` is 2¹⁶ = 65536. -/
theorem ofBits_65536 : Ideal.ofBits .f32 0x47800000#32 = ((65536 : ℝ) : EReal) := by
  simp [Ideal.ofBits, Ideal.ieee, -EReal.coe_mul]; norm_num

/-- Multiplying a sum by 2⁻¹⁶ is dividing it, started from the zero word, by 65536 — for every extended real. -/
theorem mean_mul_eq_div (S : EReal) :
    S * Ideal.ofBits .f32 0x37800000#32
      = Ideal.div (Ideal.ofBits .f32 0x00000000#32 + S) (Ideal.ofBits .f32 0x47800000#32) := by
  rw [ofBits_inv65536, ofBits_65536, Ideal.ofBits_zero_f32, zero_add, Ideal.div_coe (by norm_num : (65536 : ℝ) ≠ 0)]

/-- The sum of run `q` (rows `64 q … 64 q + 63`) of a plane. -/
def runSum (g : Fin 256 → Fin 256 → EReal) (q : Fin 4) : EReal :=
  ∑ r : Fin 64, ∑ w : Fin 256, g ⟨64 * q.val + r.val, by have := q.isLt; have := r.isLt; omega⟩ w

/-- The mean of a plane taken run by run: the four run sums added from zero, times 2⁻¹⁶. -/
def poolMean (g : Fin 256 → Fin 256 → EReal) : EReal :=
  ((((0 + runSum g 0) + runSum g 1) + runSum g 2) + runSum g 3) * Ideal.ofBits .f32 0x37800000#32

/-- The mean taken run by run is the whole plane's sum, started from the zero word, divided by 65536. -/
theorem poolMean_eq_div (g : Fin 256 → Fin 256 → EReal) :
    poolMean g = Ideal.div (Ideal.ofBits .f32 0x00000000#32 + ∑ hh : Fin 256, ∑ w : Fin 256, g hh w)
      (Ideal.ofBits .f32 0x47800000#32) := by
  unfold poolMean runSum
  exact (congrArg (fun S => S * Ideal.ofBits .f32 0x37800000#32)
    (sum_rows_four_runs (fun hh => ∑ w : Fin 256, g hh w)
      (fun q r => ∑ w : Fin 256, g ⟨64 * q.val + r.val, by have := q.isLt; have := r.isLt; omega⟩ w) (fun _ _ => rfl)).symm).trans
    (mean_mul_eq_div _)

end Cert.DynConv

end
-- ==== Proof.PoolBody.lean ====
/-
  What the pooling body stores, read at an entry.

  The body holds a block `X` of shape [8, 8, 256, 256] (batch, channel, row, column).  It loads the
  four runs of 64 consecutive rows, sums each run over its columns and then over its rows, adds the
  four run sums from zero into an [8, 8] array indexed (batch, channel), transposes it, multiplies
  by 2⁻¹⁶ and stores the [8, 8] block indexed (channel, batch).  At the extended reals the stored
  entry `(c, b)` is therefore the four run sums of the plane `(b, c)`, added from zero, times 2⁻¹⁶.
-/
import proofs.«144171_j87892210745472_2_alg».proof.Proof.Gen.KernelIdeal.Frame
import Idealize.ShloMosaic.Lib.Pipeline.Value
import Idealize.ShloMosaic.Lib.ValueIdx
import Idealize.ShloMosaic.PureOps.Ideal.Laws
import proofs.«144171_j87892210745472_2_alg».proof.Proof.PlaneSum

set_option maxRecDepth 16384

noncomputable section

namespace Cert.KernelIdeal.PoolBody

open Cert.KernelIdeal Cert.KernelIdeal.Gen Cert.DynConv
open Idealize.ShloMosaic Idealize.ShloMosaic.TcCoe Idealize.ShloMosaic.Tactic Idealize.ShloMosaic.ValueIdx
open Idealize.SL Idealize.SL.Sem

/-! ## The store the run finds, over the body's four loads (any float values) -/

section AnyFloat
variable {F : FTy → Type} [FloatOps F]

theorem hz2 : (![0, 0] : Fin 2 → Nat) = fun _ => 0 := funext fun a => by fin_cases a <;> rfl

/-- The four runs of rows lie inside the block. -/
theorem run_inb (o : Nat) (ho : o + 64 ≤ 256) :
    ∀ a, (![0, 0, o, 0] : Fin 4 → Nat) a + S8x8x64x256.size a ≤ S8x8x256x256.size a := fun a => by
  match a with
  | ⟨0, _⟩ => exact Nat.le_refl _
  | ⟨1, _⟩ => exact Nat.le_refl _
  | ⟨2, _⟩ => exact ho
  | ⟨3, _⟩ => exact Nat.le_refl _

/-- The rows `o … o + 63` of the block. -/
abbrev rowsFrom (X : Vec F S8x8x256x256 .f32) (o : Nat) (ho : o + 64 ≤ 256) : Vec F S8x8x64x256 .f32 :=
  View.ld X (Rect.unit (s := S8x8x256x256) ![0, 0, o, 0] S8x8x64x256.size (run_inb o ho))

/-- What the body leaves in the output block is its one store's value over the four loaded runs. -/
theorem out_eq (c : Dev nD) (i : grid0.Coords) (arg1 : Memref sig .tc .vmem S8x8x256x256 .f32) (harg1 : arg1.IsWhole)
    (arg2 : Memref sig .tc .vmem S8x8 .f32) (harg2 : arg2.IsWhole) (x0 : Vec F S8x8x256x256 .f32) :
    out0_A_1 c i arg1 harg1 arg2 harg2 x0
      = k0_pay1 (k0_pay2 (rowsFrom x0 0 (by decide)) (rowsFrom x0 64 (by decide)) (rowsFrom x0 128 (by decide)) (rowsFrom x0 192 (by decide))) := by
  unfold out0_A_1
  rw [View.read_writes_eq_canon _ _ _ (cover0_A_1 c i arg1 harg1 arg2 harg2 x0)]
  unfold kernelRun0_A
  dsimp only
  sl_unfold_words
  rw [View.canon_unit_zero hz2]
  simp only [View.readAt_eq_ld, harg1.read_unread]

end AnyFloat

/-! ## The store's value at an entry, at the extended reals -/

/-- A run read at `(b, c, r, w)` is the block at row `o + r`. -/
theorem rowsFrom_apply (X : Vec Ideal S8x8x256x256 .f32) (o : Nat) (ho : o + 64 ≤ 256) (b c : Fin 8) (r : Fin 64) (w : Fin 256) :
    rowsFrom X o ho (ix4 b c r w) = X (ix4 b c ⟨o + r.val, by have := r.isLt; omega⟩ w) :=
  congrArg X (funext fun a => Fin.ext (by
    match a with
    | ⟨0, _⟩ => show 0 + 1 * b.val = b.val; omega
    | ⟨1, _⟩ => show 0 + 1 * c.val = c.val; omega
    | ⟨2, _⟩ => show o + 1 * r.val = o + r.val; omega
    | ⟨3, _⟩ => show 0 + 1 * w.val = w.val; omega))

/-- A run summed over its columns and then over its rows, at `(b, c)`: the double sum over the run. -/
theorem runSum_apply (v : FVec Ideal S8x8x64x256 .f32) (h3 : S8x8x64x256.Reduces [3] S8x8x64) (h2 : S8x8x64.Reduces [2] S8x8)
    (hφ : FKind.Formats .f32) (hacc3 : (0x00000000#32 : BitVec 32) = FKind.add.neutral .f32 hφ)
    (hacc2 : (0x00000000#32 : BitVec 32) = FKind.add.neutral .f32 hφ) (b c : Fin 8) :
    multiReduction .add [2] S8x8 (multiReduction .add [3] S8x8x64 v 0x00000000#32 h3 hφ hacc3) 0x00000000#32 h2 hφ hacc2 (ix2 b c)
      = ∑ r : Fin 64, ∑ w : Fin 256, v (ix4 b c r w) := by
  refine (Ideal.multiReduction_add_single _ _ h2 hφ hacc2 (ix2 b c)).trans ?_
  refine Finset.sum_congr rfl fun r _ => ?_
  refine (Ideal.multiReduction_add_single v _ h3 hφ hacc3 _).trans ?_
  refine Finset.sum_congr rfl fun w _ => ?_
  exact congrArg v (funext fun a => Fin.ext (by
    match a with
    | ⟨0, _⟩ => rfl
    | ⟨1, _⟩ => rfl
    | ⟨2, _⟩ => rfl
    | ⟨3, _⟩ => rfl))

/-- WHAT THE BODY STORES at `(c, b)` of the output block: the mean, taken run by run, of the plane `(b, c)`. -/
theorem store_apply (X : Vec Ideal S8x8x256x256 .f32) (b c : Fin 8) :
    k0_pay1 (F := Ideal) (k0_pay2 (rowsFrom X 0 (by decide)) (rowsFrom X 64 (by decide)) (rowsFrom X 128 (by decide)) (rowsFrom X 192 (by decide))) (ix2 c b)
      = poolMean (fun i j => X (ix4 b c i j)) := by
  unfold k0_pay1 poolMean runSum
  refine congrArg₂ (· * ·) ?_ rfl
  refine (transpose_apply [1, 0] _ transposes_S8x8_p1_0_S8x8 (ix2 c b) (ix2 b c) (fun e => by
    match e with
    | ⟨0, _⟩ => rfl
    | ⟨1, _⟩ => rfl)).trans ?_
  unfold k0_pay2
  refine congrArg₂ (· + ·) (congrArg₂ (· + ·) (congrArg₂ (· + ·) (congrArg₂ (· + ·) Ideal.ofBits_zero_f32 ?_) ?_) ?_) ?_
  · refine (runSum_apply _ _ _ _ _ _ b c).trans (Finset.sum_congr rfl fun r _ => Finset.sum_congr rfl fun w _ => ?_)
    exact (rowsFrom_apply X 0 (by decide) b c r w).trans (congrArg X (congrArg (fun k => ix4 b c k w) (Fin.ext (by show 0 + r.val = 64 * 0 + r.val; omega))))
  · refine (runSum_apply _ _ _ _ _ _ b c).trans (Finset.sum_congr rfl fun r _ => Finset.sum_congr rfl fun w _ => ?_)
    exact (rowsFrom_apply X 64 (by decide) b c r w).trans (congrArg X (congrArg (fun k => ix4 b c k w) (Fin.ext (by show 64 + r.val = 64 * 1 + r.val; omega))))
  · refine (runSum_apply _ _ _ _ _ _ b c).trans (Finset.sum_congr rfl fun r _ => Finset.sum_congr rfl fun w _ => ?_)
    exact (rowsFrom_apply X 128 (by decide) b c r w).trans (congrArg X (congrArg (fun k => ix4 b c k w) (Fin.ext (by show 128 + r.val = 64 * 2 + r.val; omega))))
  · refine (runSum_apply _ _ _ _ _ _ b c).trans (Finset.sum_congr rfl fun r _ => Finset.sum_congr rfl fun w _ => ?_)
    exact (rowsFrom_apply X 192 (by decide) b c r w).trans (congrArg X (congrArg (fun k => ix4 b c k w) (Fin.ext (by show 192 + r.val = 64 * 3 + r.val; omega))))

end Cert.KernelIdeal.PoolBody

end
-- ==== Proof.PoolArray.lean ====
/-
  The pooling launch: from the blocks its grid points write to the whole [96, 8] array of means.

  Grid point `t` (of 12) handles channels `8 t … 8 t + 7`: it reads the block of the input at those
  channels and writes rows `8 t … 8 t + 7` of the [96, 8] array, entry `(c, b)` being the mean — taken
  run by run — of plane `(b, c)` of the input.  The 12 blocks tile the array.
-/
import proofs.«144171_j87892210745472_2_alg».proof.Proof.Gen.KernelIdeal.Frame
import proofs.«144171_j87892210745472_2_alg».proof.Proof.PoolBody
import Idealize.ShloMosaic.Lib.Pipeline.Value

set_option maxRecDepth 16384

noncomputable section

namespace Cert.KernelIdeal.PoolArray

open Cert.KernelIdeal Cert.KernelIdeal.Gen Cert.DynConv Cert.KernelIdeal.PoolBody
open Idealize.ShloMosaic Idealize.ShloMosaic.TcCoe Idealize.ShloMosaic.ValueIdx
open Idealize.SL Idealize.SL.Sem
open Idealize.ShloMosaic.Pipeline (Dat)

/-- The mean of plane `(b, c)` of the input, taken run by run. -/
def pooledAt (x : S8x96x256x256.Idx → EReal) (c : Fin 96) (b : Fin 8) : EReal :=
  poolMean (fun i j => x (ix4 b c i j))

/-- The [96, 8] array of means as one function of the input. -/
def pooledT (x : S8x96x256x256.Idx → EReal) : S96x8.Idx → EReal := fun y => pooledAt x (y 0) (y 1)

/-- An entry of a written block, when the block's planes are the whole input's (`hx`). -/
theorem blk_entry (x : S8x96x256x256.Idx → EReal) (X : Vec Ideal S8x8x256x256 .f32) (b cc : Fin 8) (c' : Fin 96)
    (hx : ∀ i j : Fin 256, X (ix4 b cc i j) = x (ix4 b c' i j)) :
    k0_pay1 (F := Ideal) (k0_pay2 (rowsFrom X 0 (by decide)) (rowsFrom X 64 (by decide)) (rowsFrom X 128 (by decide)) (rowsFrom X 192 (by decide))) (ix2 cc b)
      = pooledAt x c' b :=
  (store_apply X b cc).trans (congrArg poolMean (funext fun i => funext fun j => hx i j))

variable (V : (c : Dev nD) → (b : Ref sig .tc) → Buf (Elt Ideal) ((c : Thread nD τ).loc b))

/-- The printed index maps, decided over the grid: channel block `t` of the input, row block `t` of the means. -/
theorem idx_facts : ∀ t : Fin cfg0.N, win0_0.index t (0 : Fin 4) = 0 ∧ win0_0.index t (1 : Fin 4) = t.val
    ∧ win0_0.index t (2 : Fin 4) = 0 ∧ win0_0.index t (3 : Fin 4) = 0
    ∧ win0_1.index t (0 : Fin 2) = t.val ∧ win0_1.index t (1 : Fin 2) = 0 :=
  (by decide +kernel : ∀ t : Fin grid0.N, _)

/-- An entry of what point `t` writes back is the array of means at the entry's place. -/
theorem flushed_entry (c : Dev nD) (t : Fin cfg0.N) (cc b : Fin 8) :
    outsAt0 (F := Ideal) V c t (ix2 cc b) = pooledT (V c main_arg0) (((cfg0.win 1).blk t).view.emb (ix2 cc b)) := by
  obtain ⟨e0, e1, e2, e3, e4, e5⟩ := idx_facts t
  have ht : t.val < 12 := Nat.lt_of_lt_of_eq t.isLt N_0
  have hb := b.isLt
  have hcc := cc.isLt
  have hE : ((cfg0.win 1).blk t).view.emb (ix2 cc b) = ix2 (⟨8 * t.val + cc.val, by omega⟩ : Fin 96) b :=
    funext fun a => Fin.ext (by
      match a with
      | ⟨0, _⟩ => show win0_1.index t (0 : Fin 2) * 8 + 1 * cc.val = 8 * t.val + cc.val; omega
      | ⟨1, _⟩ => show win0_1.index t (1 : Fin 2) * 8 + 1 * b.val = b.val; omega)
  rw [hE]
  unfold outsAt0
  rw [out_eq]
  refine blk_entry (V c main_arg0) (iblk0 V c 0 t) b cc ⟨8 * t.val + cc.val, by omega⟩ ?_
  intro i j
  have hi := i.isLt
  have hj := j.isLt
  show V c (Pipeline.arrRef spec0 0) (((cfg0.win 0).blk t).view.emb (ix4 b cc i j)) = V c main_arg0 (ix4 b ⟨8 * t.val + cc.val, by omega⟩ i j)
  refine congrArg (V c main_arg0) (funext fun a => Fin.ext ?_)
  match a with
  | ⟨0, _⟩ => show win0_0.index t (0 : Fin 4) * 8 + 1 * b.val = b.val; omega
  | ⟨1, _⟩ => show win0_0.index t (1 : Fin 4) * 8 + 1 * cc.val = 8 * t.val + cc.val; omega
  | ⟨2, _⟩ => show win0_0.index t (2 : Fin 4) * 256 + 1 * i.val = i.val; omega
  | ⟨3, _⟩ => show win0_0.index t (3 : Fin 4) * 256 + 1 * j.val = j.val; omega

/-- WHAT POINT `t` WRITES BACK is block `t` of the array of means of the input as the launch finds it. -/
theorem flushed_eq (c : Dev nD) (t : Fin cfg0.N) :
    (dat0 V c).flushed 1 t = ((cfg0.win 1).blk t).view.read (Elt Ideal) (pooledT (V c main_arg0)) := by
  show (cfg0.win 1).cut (grid0.coords t) ((dat0 V c).after 1 t) = _
  rw [after0_1]
  refine funext fun y => ?_
  revert y
  show ∀ y : S8x8.Idx, outsAt0 (F := Ideal) V c t y = pooledT (V c main_arg0) (((cfg0.win 1).blk t).view.emb y)
  intro y
  obtain ⟨cc, b, rfl⟩ : ∃ (cc b : Fin 8), y = ix2 cc b := ⟨y 0, y 1, eq_ix2 y⟩
  exact flushed_entry V c t cc b

/-- An index of the array is in point `t`'s block iff each coordinate is in the block's range on its axis. -/
theorem mem_blk (t : Fin cfg0.N) (i : S96x8.Idx) :
    i ∈ ((cfg0.win 1).blk t).view.set ↔ ∀ a : Fin 2, win0_1.index t a * S8x8.size a ≤ (i a).val
      ∧ (i a).val < win0_1.index t a * S8x8.size a + S8x8.size a := by
  show i ∈ ((View.whole main_v0).slice (win0_1.rect t)).set ↔ _
  rw [View.set_slice_whole, Rect.mem_set_unit]
  exact Iff.rfl

/-- Every index of the array of means is in the block of the point that handles its channel. -/
theorem cover (i : S96x8.Idx) :
    ∃ t : Fin cfg0.N, (cfg0.win 1).flush t = true ∧ i ∈ ((cfg0.win 1).blk t).view.set := by
  have h0 : (i 0).val < 96 := (i 0).isLt
  have h1 : (i 1).val < 8 := (i 1).isLt
  have hN : (i 0).val / 8 < cfg0.N := Nat.lt_of_lt_of_eq (by omega : (i 0).val / 8 < 12) N_0.symm
  refine ⟨⟨(i 0).val / 8, hN⟩, flush0_1 _, ?_⟩
  rw [mem_blk]
  obtain ⟨e0, e1, e2, e3, e4, e5⟩ := idx_facts ⟨(i 0).val / 8, hN⟩
  have e4' : win0_1.index ⟨(i 0).val / 8, hN⟩ (0 : Fin 2) = (i 0).val / 8 := e4
  intro a
  match a with
  | ⟨0, _⟩ => show win0_1.index ⟨(i 0).val / 8, hN⟩ (0 : Fin 2) * 8 ≤ (i 0).val ∧ (i 0).val < win0_1.index ⟨(i 0).val / 8, hN⟩ (0 : Fin 2) * 8 + 8; omega
  | ⟨1, _⟩ => show win0_1.index ⟨(i 0).val / 8, hN⟩ (1 : Fin 2) * 8 ≤ (i 1).val ∧ (i 1).val < win0_1.index ⟨(i 0).val / 8, hN⟩ (1 : Fin 2) * 8 + 8; omega

/-- THE ARRAY OF MEANS after the launch: one function of the input as the launch finds it. -/
theorem final (c : Dev nD) : (dat0 V c).arrAt 1 cfg0.N = pooledT (V c main_arg0) :=
  (dat0 V c).arrAt_eq_of_cover 1 _ (fun t _ => flushed_eq V c t) (cover)

end Cert.KernelIdeal.PoolArray

end
-- ==== Proof.HostAttention.lean ====
/-
  The host stretch between the two launches: from the [96, 8] array of means to the [8, 9] table of
  softmax weights.

  The host transposes the means to [8, 96], applies a dense layer with weights `a1` and bias `a2`
  under a maximum with zero, a second dense layer with weights `a3` and bias `a4`, and a softmax along
  each row (maximum subtracted, exponential, division by the row's sum).  The stretch is carried as
  ONE function `attn` of the transposed means and the four parameter arrays: nothing about it is
  used beyond its being the same function on both sides of the claim.
-/
import proofs.«144171_j87892210745472_2_alg».proof.Proof.Gen.KernelIdeal.Frame
import Idealize.ShloMosaic.Lib.StableHlo.Run
import Idealize.ShloMosaic.PureOps.Ideal.Laws

set_option maxRecDepth 16384

noncomputable section

namespace Cert.KernelIdeal.Attention

open Cert.KernelIdeal Cert.KernelIdeal.Gen
open Idealize.ShloMosaic Idealize.ShloMosaic.TcCoe Idealize.ShloMosaic.StableHlo
open Idealize.SL Idealize.SL.Sem

/-- The first dense layer: the means against the transposed weights, plus the bias spread over the rows. -/
def dense1 (p : FVec Ideal S8x96 .f32) (a1 : FVec Ideal S12x96 .f32) (a2 : FVec Ideal S12 .f32) : FVec Ideal S8x12 .f32 :=
  addf (Host.dotGeneral (F := Ideal) dot_S8x96_S96x12_S8x12_1_0_0_1_n_n none p (transpose S96x12 [1, 0] a1 transposes_S12x96_S96x12_1_0))
    (broadcastInDim S8x12 ![0, 1] bcast_S1x12_S8x12_0_1 (broadcastInDim S1x12 ![1] bcast_S12_S1x12_1 a2))

/-- The maximum with zero. -/
def relu0 (h : FVec Ideal S8x12 .f32) : FVec Ideal S8x12 .f32 :=
  maximumf h (broadcastInDim S8x12 ![] bcast_S_S8x12 (constant (F := Ideal) S_ .f32 0x00000000#32))

/-- The second dense layer followed by the softmax along each row. -/
def soft (hid : FVec Ideal S8x12 .f32) (a3 : FVec Ideal S9x12 .f32) (a4 : FVec Ideal S9 .f32) : FVec Ideal S8x9 .f32 :=
  let z : FVec Ideal S8x9 .f32 :=
    addf (Host.dotGeneral (F := Ideal) dot_S8x12_S12x9_S8x9_1_0_0_1_n_n none hid (transpose S12x9 [1, 0] a3 transposes_S9x12_S12x9_1_0))
      (broadcastInDim S8x9 ![0, 1] bcast_S1x9_S8x9_0_1 (broadcastInDim S1x9 ![1] bcast_S9_S1x9_1 a4))
  let mx : FVec Ideal S8 .f32 :=
    maximumf (broadcastInDim S8 ![] bcast_S_S8 (constant (F := Ideal) S_ .f32 0xFF800000#32))
      (Host.reduce (FloatOps.maximumf (F := Ideal)) z (constant (F := Ideal) S_ .f32 0xFF800000#32) reducesTo_S8x9_S8_d1 h_S_)
  let e : FVec Ideal S8x9 .f32 :=
    Host.exp (F := Ideal) (subf z (broadcastInDim S8x9 ![0, 1] bcast_S8x1_S8x9_0_1 (broadcastInDim S8x1 ![0] bcast_S8_S8x1_0 mx)))
  Host.divf (F := Ideal) e (broadcastInDim S8x9 ![0, 1] bcast_S8x1_S8x9_0_1 (broadcastInDim S8x1 ![0] bcast_S8_S8x1_0
    (Host.reduceAdd (F := Ideal) e (constant (F := Ideal) S_ .f32 0x00000000#32) reducesTo_S8x9_S8_d1 h_S_)))

/-- The table of softmax weights as one function of the [8, 96] means and the four parameter arrays. -/
def attn (p : FVec Ideal S8x96 .f32) (a1 : FVec Ideal S12x96 .f32) (a2 : FVec Ideal S12 .f32)
    (a3 : FVec Ideal S9x12 .f32) (a4 : FVec Ideal S9 .f32) : FVec Ideal S8x9 .f32 :=
  soft (relu0 (dense1 p a1 a2)) a3 a4

/-- The first stretch, from any contents `W`: the first dense layer in its buffer; the later layers' parameters untouched. -/
theorem stretch1 (W : Valuation τ sig (Elt Ideal)) :
    StableHlo.after hostOps1 W (Proc.devRef .tc main_v6)
      = dense1 (transpose S8x96 [1, 0] (W (Proc.devRef .tc main_v0)) transposes_S96x8_S8x96_1_0) (W (Proc.devRef .tc main_arg1)) (W (Proc.devRef .tc main_arg2)) := by
  after_results
  rfl
theorem stretch1_arg3 (W : Valuation τ sig (Elt Ideal)) :
    StableHlo.after hostOps1 W (Proc.devRef .tc main_arg3) = W (Proc.devRef .tc main_arg3) := by
  after_results
theorem stretch1_arg4 (W : Valuation τ sig (Elt Ideal)) :
    StableHlo.after hostOps1 W (Proc.devRef .tc main_arg4) = W (Proc.devRef .tc main_arg4) := by
  after_results

/-- The second stretch (the maximum with zero), from any contents `W`. -/
theorem stretch2 (W : Valuation τ sig (Elt Ideal)) :
    StableHlo.after hostOps1_1 W (Proc.devRef .tc main_v7) = relu0 (W (Proc.devRef .tc main_v6)) := by
  after_results
  rfl
theorem stretch2_arg3 (W : Valuation τ sig (Elt Ideal)) :
    StableHlo.after hostOps1_1 W (Proc.devRef .tc main_arg3) = W (Proc.devRef .tc main_arg3) := by
  after_results
theorem stretch2_arg4 (W : Valuation τ sig (Elt Ideal)) :
    StableHlo.after hostOps1_1 W (Proc.devRef .tc main_arg4) = W (Proc.devRef .tc main_arg4) := by
  after_results

set_option maxHeartbeats 2000000 in
/-- The third stretch (second dense layer and softmax), from any contents `W`. -/
theorem stretch3 (W : Valuation τ sig (Elt Ideal)) :
    StableHlo.after hostOps1_2 W (Proc.devRef .tc main_v23)
      = soft (W (Proc.devRef .tc main_v7)) (W (Proc.devRef .tc main_arg3)) (W (Proc.devRef .tc main_arg4)) := by
  after_results_simp
  rfl

/-- What the three host stretches leave in the table's buffer, from any contents `W` they start from. -/
theorem table_eq (W : Valuation τ sig (Elt Ideal)) :
    StableHlo.after hostOps1_2 (StableHlo.after hostOps1_1 (StableHlo.after hostOps1 W)) (Proc.devRef .tc main_v23)
      = attn (transpose S8x96 [1, 0] (W (Proc.devRef .tc main_v0)) transposes_S96x8_S8x96_1_0) (W (Proc.devRef .tc main_arg1))
          (W (Proc.devRef .tc main_arg2)) (W (Proc.devRef .tc main_arg3)) (W (Proc.devRef .tc main_arg4)) := by
  rw [stretch3, stretch2, stretch2_arg3, stretch2_arg4, stretch1, stretch1_arg3, stretch1_arg4]
  rfl

end Cert.KernelIdeal.Attention

end
-- ==== Proof.KernelValue.lean ====
/-
  The idealized kernel's result array as one function of the argument arrays.

  Reading the run's last boundary backwards: the result buffer is what the convolution launch
  leaves, the window sums of the input's planes against the table of weights the launch finds; the
  table is what the host stretch makes of the array of means and the parameters; the array of means
  is what the pooling launch leaves, a function of the input alone; and no segment writes an
  argument array.
-/
import proofs.«144171_j87892210745472_2_alg».proof.Proof.KernelRun
import proofs.«144171_j87892210745472_2_alg».proof.Proof.ConvArray
import proofs.«144171_j87892210745472_2_alg».proof.Proof.PoolArray
import proofs.«144171_j87892210745472_2_alg».proof.Proof.HostAttention

set_option maxRecDepth 16384

noncomputable section

namespace Cert.KernelIdeal.KernelValue

open Cert.KernelIdeal Cert.KernelIdeal.Gen Cert.KernelIdeal.Attention Cert.KernelIdeal.ConvArray Cert.KernelIdeal.PoolArray
open Idealize.ShloMosaic Idealize.ShloMosaic.TcCoe Idealize.ShloMosaic.StableHlo
open Idealize.SL Idealize.SL.Sem

/-- The kernel's result: the window sums of the input's planes against the softmax table computed from the
    transposed array of the planes' means. -/
def result (x : S8x96x256x256.Idx → EReal) (a1 : FVec Ideal S12x96 .f32) (a2 : FVec Ideal S12 .f32)
    (a3 : FVec Ideal S9x12 .f32) (a4 : FVec Ideal S9 .f32) : S8x96x256x256.Idx → EReal :=
  conv (attn (transpose S8x96 [1, 0] (pooledT x) transposes_S96x8_S8x96_1_0) a1 a2 a3 a4) x

variable (m : (ℓ : Loc nD τ sig) → Buf (Elt Ideal) ℓ) (ρ : Dev nD → PrngReg)

/-- The convolution launch finds the input as it was launched. -/
theorem entry_arg0 (c : Dev nD) : V4 m ρ c main_arg0 = m ((c.tc : Thread nD τ).loc main_arg0) :=
  ((W5_arr m ρ c 1).trans (((dat1 (V4 m ρ) c).arrAt_in 1 rfl _).trans (A_eq1 (V4 m ρ) c 1))).symm.trans (W5_main_arg0 m ρ c)

/-- The convolution launch finds, as its table, the attention function of the transposed means and the parameters. -/
theorem entry_table (c : Dev nD) :
    V4 m ρ c main_v23 = attn (transpose S8x96 [1, 0] (pooledT (m ((c.tc : Thread nD τ).loc main_arg0))) transposes_S96x8_S8x96_1_0)
      (m ((c.tc : Thread nD τ).loc main_arg1)) (m ((c.tc : Thread nD τ).loc main_arg2))
      (m ((c.tc : Thread nD τ).loc main_arg3)) (m ((c.tc : Thread nD τ).loc main_arg4)) := by
  show StableHlo.after hostOps1_2 (StableHlo.after hostOps1_1 (StableHlo.after hostOps1 (W1 m ρ c))) (Proc.devRef .tc main_v23) = _
  rw [table_eq (W1 m ρ c)]
  have e0 : W1 m ρ c (Proc.devRef .tc main_v0) = pooledT (m ((c.tc : Thread nD τ).loc main_arg0)) :=
    (W1_arr m ρ c 1).trans (PoolArray.final (V0 m ρ) c)
  have e1 : W1 m ρ c (Proc.devRef .tc main_arg1) = m ((c.tc : Thread nD τ).loc main_arg1) := W1_of_ne m ρ c main_arg1 (by decide)
  have e2 : W1 m ρ c (Proc.devRef .tc main_arg2) = m ((c.tc : Thread nD τ).loc main_arg2) := W1_of_ne m ρ c main_arg2 (by decide)
  have e3 : W1 m ρ c (Proc.devRef .tc main_arg3) = m ((c.tc : Thread nD τ).loc main_arg3) := W1_of_ne m ρ c main_arg3 (by decide)
  have e4 : W1 m ρ c (Proc.devRef .tc main_arg4) = m ((c.tc : Thread nD τ).loc main_arg4) := W1_of_ne m ρ c main_arg4 (by decide)
  rw [e0, e1, e2, e3, e4]

/-- The run's last boundary holds, in the result buffer, the result function of the launch memory's arguments. -/
theorem result_eq (c : Dev nD) :
    W5 m ρ c (Proc.devRef .tc main_v24) = result (m ((c.tc : Thread nD τ).loc main_arg0))
      (m ((c.tc : Thread nD τ).loc main_arg1)) (m ((c.tc : Thread nD τ).loc main_arg2))
      (m ((c.tc : Thread nD τ).loc main_arg3)) (m ((c.tc : Thread nD τ).loc main_arg4)) := by
  refine (W5_arr m ρ c 2).trans ?_
  rw [ConvArray.final (V4 m ρ) c, entry_arg0 m ρ c, entry_table m ρ c]
  rfl

/-- THE KERNEL'S RUN: every weakly fair execution terminates with the result buffer at the result function of the
    arguments, and the arguments unchanged. -/
theorem run : θ_run defs (onTc (τ := τ) (main (F := Ideal))) ⟨m, fun _ => 0, ρ⟩ (fun r => ∀ c : Dev nD,
      r.2.mem ((c.tc : Thread nD τ).loc main_v24) = result (m ((c.tc : Thread nD τ).loc main_arg0))
        (m ((c.tc : Thread nD τ).loc main_arg1)) (m ((c.tc : Thread nD τ).loc main_arg2))
        (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h c).1.trans (result_eq m ρ c), (h c).2⟩) (ConvRun.run_result m ρ)

end Cert.KernelIdeal.KernelValue

end
-- ==== Proof.RefValue.lean ====
/-
  The reference read at an entry, at the extended reals.

  The reference takes the mean of every plane of the input (the sum over its rows and columns,
  started from zero, divided by 65536), feeds the means to the attention layers, pads the input with
  a one-cell border of zeros, and adds — from a zero array, one at a time in row-major order of the
  window — the nine products of the table's weight `(b, p)` with the padded input cut at window
  position `p`.  So a mean is the plane's mean taken run by run (the two ways of averaging agree
  for every extended real), the padded input is the bordered plane, and the result at
  `(b, c, i, j)` is the window sum of plane `(b, c)` against row `b` of the table.
-/
import proofs.«144171_j87892210745472_2_alg».proof.Proof.Gen.ReferenceIdeal.Read
import proofs.«144171_j87892210745472_2_alg».proof.Proof.WindowSum
import proofs.«144171_j87892210745472_2_alg».proof.Proof.PlaneSum
import Idealize.ShloMosaic.Lib.KernelVsHost
import Idealize.ShloMosaic.Lib.IdealHost

set_option maxRecDepth 16384

noncomputable section

namespace Cert.ReferenceIdeal.RefValue

open Cert.ReferenceIdeal Cert.ReferenceIdeal.Gen Cert.ReferenceIdeal.Read Cert.DynConv
open Idealize.ShloMosaic Idealize.ShloMosaic.ValueIdx

/-! ## The means -/

/-- The reference's mean of plane `(b, c)` is the plane's mean taken run by run. -/
theorem mean_apply (x : (⟨S8x96x256x256, .f32⟩ : BufTy).Contents (Elt Ideal)) (b : Fin 8) (c : Fin 96) :
    val_main_v2 (F := Ideal) x (ix2 b c) = poolMean (fun i j => x (ix4 b c i j)) := by
  rw [val_main_v2_apply, Ideal.hostDivf_def]
  refine Eq.trans ?_ (poolMean_eq_div _).symm
  refine congrArg₂ Ideal.div ?_ ?_
  · show Ideal.hostReduceAdd reducesTo_S8x96x256x256_S8x96_d2_3 x (Ideal.ofBits .f32 0x00000000#32) (ix2 b c) = _
    exact Cert.LibPlanes.hostReduceAdd_planes _ x _ b c
  · rw [val_main_v1_apply]; rfl

/-! ## The padded input -/

/-- The input padded with one cell of the converted integer zero on each side of its rows and columns, read at
    `(b, c, i', j')`: the bordered plane `(b, c)`. -/
theorem padded_apply (x : (⟨S8x96x256x256, .f32⟩ : BufTy).Contents (Elt Ideal)) (b : Fin 8) (c : Fin 96) (i' j' : Fin 258) :
    val_main_v25 (F := Ideal) x (ix4 b c i' j') = bordered (fun i j => x (ix4 b c i j)) i'.val j'.val := by
  unfold val_main_v25
  have hi' := i'.isLt
  have hj' := j'.isLt
  by_cases hin : (1 ≤ i'.val ∧ i'.val ≤ 256) ∧ (1 ≤ j'.val ∧ j'.val ≤ 256)
  · obtain ⟨⟨hi1, hi2⟩, ⟨hj1, hj2⟩⟩ := hin
    refine (pad_apply_of_inside _ _ _ x _ pads_S8x96x256x256_S8x96x258x258_000_000_110_110 h_S_ (ix4 b c i' j')
      (ix4 b c (⟨i'.val - 1, by omega⟩ : Fin 256) (⟨j'.val - 1, by omega⟩ : Fin 256)) (fun a => by
        match a with
        | ⟨0, _⟩ => show b.val = 0 + b.val * (0 + 1); omega
        | ⟨1, _⟩ => show c.val = 0 + c.val * (0 + 1); omega
        | ⟨2, _⟩ => show i'.val = 1 + (i'.val - 1) * (0 + 1); omega
        | ⟨3, _⟩ => show j'.val = 1 + (j'.val - 1) * (0 + 1); omega)).trans ?_
    exact (bordered_inside (fun i j => x (ix4 b c i j)) _ _ ⟨i'.val - 1, by omega⟩ ⟨j'.val - 1, by omega⟩
      (by show i'.val = i'.val - 1 + 1; omega) (by show j'.val = j'.val - 1 + 1; omega)).symm
  · have hz : val_main_call1_v0 (F := Ideal) (Shape.Idx.first h_S_) = (0 : EReal) := sitofp_zero (φ := .f32)
    by_cases hrow : 1 ≤ i'.val ∧ i'.val ≤ 256
    · have hcol : ¬(1 ≤ j'.val ∧ j'.val ≤ 256) := fun h => hin ⟨hrow, h⟩
      refine (pad_apply_of_not_inside _ _ _ x _ pads_S8x96x256x256_S8x96x258x258_000_000_110_110 h_S_ (ix4 b c i' j') 3 (fun hh => hcol ?_)).trans ?_
      · have hh' : 1 ≤ j'.val ∧ (j'.val - 1) % (0 + 1) = 0 ∧ (j'.val - 1) / (0 + 1) < 256 := hh
        omega
      · exact hz.trans (bordered_outside _ _ _ (by omega)).symm
    · refine (pad_apply_of_not_inside _ _ _ x _ pads_S8x96x256x256_S8x96x258x258_000_000_110_110 h_S_ (ix4 b c i' j') 2 (fun hh => hrow ?_)).trans ?_
      · have hh' : 1 ≤ i'.val ∧ (i'.val - 1) % (0 + 1) = 0 ∧ (i'.val - 1) / (0 + 1) < 256 := hh
        omega
      · exact hz.trans (bordered_outside _ _ _ (by omega)).symm

/-! ## The nine taps -/

/-- Tap 0 of the window (row 0, column 0): weight `(b, 0)` of the table against the bordered plane
    `0` rows and `0` columns on. -/
theorem tap0_apply (x : (⟨S8x96x256x256, .f32⟩ : BufTy).Contents (Elt Ideal)) (a1 : (⟨S12x96, .f32⟩ : BufTy).Contents (Elt Ideal)) (a2 : (⟨S12, .f32⟩ : BufTy).Contents (Elt Ideal)) (a3 : (⟨S9x12, .f32⟩ : BufTy).Contents (Elt Ideal)) (a4 : (⟨S9, .f32⟩ : BufTy).Contents (Elt Ideal)) (b : Fin 8) (c : Fin 96) (i j : Fin 256) :
    val_main_v32 (F := Ideal) x a1 a2 a3 a4 (ix4 b c i j)
      = val_main_v24 (F := Ideal) x a1 a2 a3 a4 (ix2 b ⟨0, by decide⟩) * bordered (fun i j => x (ix4 b c i j)) (i.val + 0) (j.val + 0) := by
  have hi := i.isLt
  have hj := j.isLt
  rw [val_main_v32_apply, val_main_v31_apply, val_main_v29_apply, val_main_v28_apply, val_main_v27_apply, val_main_v30_apply, Ideal.mulf_def]
  refine congrArg₂ (· * ·) (congrArg _ (funext fun a => Fin.ext ?_)) ?_
  · match a with
    | ⟨0, _⟩ => exact Nat.div_one _
    | ⟨1, _⟩ => rfl
  · refine (congrArg _ (?_ : idx_main_v30 (ix4 b c i j) = ix4 b c (⟨i.val + 0, by omega⟩ : Fin 258) (⟨j.val + 0, by omega⟩ : Fin 258))).trans
      (padded_apply x b c _ _)
    refine funext fun a => Fin.ext ?_
    match a with
    | ⟨0, _⟩ => rfl
    | ⟨1, _⟩ => rfl
    | ⟨2, _⟩ => show i.val = i.val + 0; omega
    | ⟨3, _⟩ => show j.val = j.val + 0; omega

/-- Tap 1 of the window (row 0, column 1): weight `(b, 1)` of the table against the bordered plane
    `0` rows and `1` columns on. -/
theorem tap1_apply (x : (⟨S8x96x256x256, .f32⟩ : BufTy).Contents (Elt Ideal)) (a1 : (⟨S12x96, .f32⟩ : BufTy).Contents (Elt Ideal)) (a2 : (⟨S12, .f32⟩ : BufTy).Contents (Elt Ideal)) (a3 : (⟨S9x12, .f32⟩ : BufTy).Contents (Elt Ideal)) (a4 : (⟨S9, .f32⟩ : BufTy).Contents (Elt Ideal)) (b : Fin 8) (c : Fin 96) (i j : Fin 256) :
    val_main_v39 (F := Ideal) x a1 a2 a3 a4 (ix4 b c i j)
      = val_main_v24 (F := Ideal) x a1 a2 a3 a4 (ix2 b ⟨1, by decide⟩) * bordered (fun i j => x (ix4 b c i j)) (i.val + 0) (j.val + 1) := by
  have hi := i.isLt
  have hj := j.isLt
  rw [val_main_v39_apply, val_main_v38_apply, val_main_v36_apply, val_main_v35_apply, val_main_v34_apply, val_main_v37_apply, Ideal.mulf_def]
  refine congrArg₂ (· * ·) (congrArg _ (funext fun a => Fin.ext ?_)) ?_
  · match a with
    | ⟨0, _⟩ => exact Nat.div_one _
    | ⟨1, _⟩ => rfl
  · refine (congrArg _ (?_ : idx_main_v37 (ix4 b c i j) = ix4 b c (⟨i.val + 0, by omega⟩ : Fin 258) (⟨j.val + 1, by omega⟩ : Fin 258))).trans
      (padded_apply x b c _ _)
    refine funext fun a => Fin.ext ?_
    match a with
    | ⟨0, _⟩ => rfl
    | ⟨1, _⟩ => rfl
    | ⟨2, _⟩ => show i.val = i.val + 0; omega
    | ⟨3, _⟩ => show 1 + j.val = j.val + 1; omega

/-- Tap 2 of the window (row 0, column 2): weight `(b, 2)` of the table against the bordered plane
    `0` rows and `2` columns on. -/
theorem tap2_apply (x : (⟨S8x96x256x256, .f32⟩ : BufTy).Contents (Elt Ideal)) (a1 : (⟨S12x96, .f32⟩ : BufTy).Contents (Elt Ideal)) (a2 : (⟨S12, .f32⟩ : BufTy).Contents (Elt Ideal)) (a3 : (⟨S9x12, .f32⟩ : BufTy).Contents (Elt Ideal)) (a4 : (⟨S9, .f32⟩ : BufTy).Contents (Elt Ideal)) (b : Fin 8) (c : Fin 96) (i j : Fin 256) :
    val_main_v46 (F := Ideal) x a1 a2 a3 a4 (ix4 b c i j)
      = val_main_v24 (F := Ideal) x a1 a2 a3 a4 (ix2 b ⟨2, by decide⟩) * bordered (fun i j => x (ix4 b c i j)) (i.val + 0) (j.val + 2) := by
  have hi := i.isLt
  have hj := j.isLt
  rw [val_main_v46_apply, val_main_v45_apply, val_main_v43_apply, val_main_v42_apply, val_main_v41_apply, val_main_v44_apply, Ideal.mulf_def]
  refine congrArg₂ (· * ·) (congrArg _ (funext fun a => Fin.ext ?_)) ?_
  · match a with
    | ⟨0, _⟩ => exact Nat.div_one _
    | ⟨1, _⟩ => rfl
  · refine (congrArg _ (?_ : idx_main_v44 (ix4 b c i j) = ix4 b c (⟨i.val + 0, by omega⟩ : Fin 258) (⟨j.val + 2, by omega⟩ : Fin 258))).trans
      (padded_apply x b c _ _)
    refine funext fun a => Fin.ext ?_
    match a with
    | ⟨0, _⟩ => rfl
    | ⟨1, _⟩ => rfl
    | ⟨2, _⟩ => show i.val = i.val + 0; omega
    | ⟨3, _⟩ => show 2 + j.val = j.val + 2; omega

/-- Tap 3 of the window (row 1, column 0): weight `(b, 3)` of the table against the bordered plane
    `1` rows and `0` columns on. -/
theorem tap3_apply (x : (⟨S8x96x256x256, .f32⟩ : BufTy).Contents (Elt Ideal)) (a1 : (⟨S12x96, .f32⟩ : BufTy).Contents (Elt Ideal)) (a2 : (⟨S12, .f32⟩ : BufTy).Contents (Elt Ideal)) (a3 : (⟨S9x12, .f32⟩ : BufTy).Contents (Elt Ideal)) (a4 : (⟨S9, .f32⟩ : BufTy).Contents (Elt Ideal)) (b : Fin 8) (c : Fin 96) (i j : Fin 256) :
    val_main_v53 (F := Ideal) x a1 a2 a3 a4 (ix4 b c i j)
      = val_main_v24 (F := Ideal) x a1 a2 a3 a4 (ix2 b ⟨3, by decide⟩) * bordered (fun i j => x (ix4 b c i j)) (i.val + 1) (j.val + 0) := by
  have hi := i.isLt
  have hj := j.isLt
  rw [val_main_v53_apply, val_main_v52_apply, val_main_v50_apply, val_main_v49_apply, val_main_v48_apply, val_main_v51_apply, Ideal.mulf_def]
  refine congrArg₂ (· * ·) (congrArg _ (funext fun a => Fin.ext ?_)) ?_
  · match a with
    | ⟨0, _⟩ => exact Nat.div_one _
    | ⟨1, _⟩ => rfl
  · refine (congrArg _ (?_ : idx_main_v51 (ix4 b c i j) = ix4 b c (⟨i.val + 1, by omega⟩ : Fin 258) (⟨j.val + 0, by omega⟩ : Fin 258))).trans
      (padded_apply x b c _ _)
    refine funext fun a => Fin.ext ?_
    match a with
    | ⟨0, _⟩ => rfl
    | ⟨1, _⟩ => rfl
    | ⟨2, _⟩ => show 1 + i.val = i.val + 1; omega
    | ⟨3, _⟩ => show j.val = j.val + 0; omega

/-- Tap 4 of the window (row 1, column 1): weight `(b, 4)` of the table against the bordered plane
    `1` rows and `1` columns on. -/
theorem tap4_apply (x : (⟨S8x96x256x256, .f32⟩ : BufTy).Contents (Elt Ideal)) (a1 : (⟨S12x96, .f32⟩ : BufTy).Contents (Elt Ideal)) (a2 : (⟨S12, .f32⟩ : BufTy).Contents (Elt Ideal)) (a3 : (⟨S9x12, .f32⟩ : BufTy).Contents (Elt Ideal)) (a4 : (⟨S9, .f32⟩ : BufTy).Contents (Elt Ideal)) (b : Fin 8) (c : Fin 96) (i j : Fin 256) :
    val_main_v60 (F := Ideal) x a1 a2 a3 a4 (ix4 b c i j)
      = val_main_v24 (F := Ideal) x a1 a2 a3 a4 (ix2 b ⟨4, by decide⟩) * bordered (fun i j => x (ix4 b c i j)) (i.val + 1) (j.val + 1) := by
  have hi := i.isLt
  have hj := j.isLt
  rw [val_main_v60_apply, val_main_v59_apply, val_main_v57_apply, val_main_v56_apply, val_main_v55_apply, val_main_v58_apply, Ideal.mulf_def]
  refine congrArg₂ (· * ·) (congrArg _ (funext fun a => Fin.ext ?_)) ?_
  · match a with
    | ⟨0, _⟩ => exact Nat.div_one _
    | ⟨1, _⟩ => rfl
  · refine (congrArg _ (?_ : idx_main_v58 (ix4 b c i j) = ix4 b c (⟨i.val + 1, by omega⟩ : Fin 258) (⟨j.val + 1, by omega⟩ : Fin 258))).trans
      (padded_apply x b c _ _)
    refine funext fun a => Fin.ext ?_
    match a with
    | ⟨0, _⟩ => rfl
    | ⟨1, _⟩ => rfl
    | ⟨2, _⟩ => show 1 + i.val = i.val + 1; omega
    | ⟨3, _⟩ => show 1 + j.val = j.val + 1; omega

/-- Tap 5 of the window (row 1, column 2): weight `(b, 5)` of the table against the bordered plane
    `1` rows and `2` columns on. -/
theorem tap5_apply (x : (⟨S8x96x256x256, .f32⟩ : BufTy).Contents (Elt Ideal)) (a1 : (⟨S12x96, .f32⟩ : BufTy).Contents (Elt Ideal)) (a2 : (⟨S12, .f32⟩ : BufTy).Contents (Elt Ideal)) (a3 : (⟨S9x12, .f32⟩ : BufTy).Contents (Elt Ideal)) (a4 : (⟨S9, .f32⟩ : BufTy).Contents (Elt Ideal)) (b : Fin 8) (c : Fin 96) (i j : Fin 256) :
    val_main_v67 (F := Ideal) x a1 a2 a3 a4 (ix4 b c i j)
      = val_main_v24 (F := Ideal) x a1 a2 a3 a4 (ix2 b ⟨5, by decide⟩) * bordered (fun i j => x (ix4 b c i j)) (i.val + 1) (j.val + 2) := by
  have hi := i.isLt
  have hj := j.isLt
  rw [val_main_v67_apply, val_main_v66_apply, val_main_v64_apply, val_main_v63_apply, val_main_v62_apply, val_main_v65_apply, Ideal.mulf_def]
  refine congrArg₂ (· * ·) (congrArg _ (funext fun a => Fin.ext ?_)) ?_
  · match a with
    | ⟨0, _⟩ => exact Nat.div_one _
    | ⟨1, _⟩ => rfl
  · refine (congrArg _ (?_ : idx_main_v65 (ix4 b c i j) = ix4 b c (⟨i.val + 1, by omega⟩ : Fin 258) (⟨j.val + 2, by omega⟩ : Fin 258))).trans
      (padded_apply x b c _ _)
    refine funext fun a => Fin.ext ?_
    match a with
    | ⟨0, _⟩ => rfl
    | ⟨1, _⟩ => rfl
    | ⟨2, _⟩ => show 1 + i.val = i.val + 1; omega
    | ⟨3, _⟩ => show 2 + j.val = j.val + 2; omega

/-- Tap 6 of the window (row 2, column 0): weight `(b, 6)` of the table against the bordered plane
    `2` rows and `0` columns on. -/
theorem tap6_apply (x : (⟨S8x96x256x256, .f32⟩ : BufTy).Contents (Elt Ideal)) (a1 : (⟨S12x96, .f32⟩ : BufTy).Contents (Elt Ideal)) (a2 : (⟨S12, .f32⟩ : BufTy).Contents (Elt Ideal)) (a3 : (⟨S9x12, .f32⟩ : BufTy).Contents (Elt Ideal)) (a4 : (⟨S9, .f32⟩ : BufTy).Contents (Elt Ideal)) (b : Fin 8) (c : Fin 96) (i j : Fin 256) :
    val_main_v74 (F := Ideal) x a1 a2 a3 a4 (ix4 b c i j)
      = val_main_v24 (F := Ideal) x a1 a2 a3 a4 (ix2 b ⟨6, by decide⟩) * bordered (fun i j => x (ix4 b c i j)) (i.val + 2) (j.val + 0) := by
  have hi := i.isLt
  have hj := j.isLt
  rw [val_main_v74_apply, val_main_v73_apply, val_main_v71_apply, val_main_v70_apply, val_main_v69_apply, val_main_v72_apply, Ideal.mulf_def]
  refine congrArg₂ (· * ·) (congrArg _ (funext fun a => Fin.ext ?_)) ?_
  · match a with
    | ⟨0, _⟩ => exact Nat.div_one _
    | ⟨1, _⟩ => rfl
  · refine (congrArg _ (?_ : idx_main_v72 (ix4 b c i j) = ix4 b c (⟨i.val + 2, by omega⟩ : Fin 258) (⟨j.val + 0, by omega⟩ : Fin 258))).trans
      (padded_apply x b c _ _)
    refine funext fun a => Fin.ext ?_
    match a with
    | ⟨0, _⟩ => rfl
    | ⟨1, _⟩ => rfl
    | ⟨2, _⟩ => show 2 + i.val = i.val + 2; omega
    | ⟨3, _⟩ => show j.val = j.val + 0; omega

/-- Tap 7 of the window (row 2, column 1): weight `(b, 7)` of the table against the bordered plane
    `2` rows and `1` columns on. -/
theorem tap7_apply (x : (⟨S8x96x256x256, .f32⟩ : BufTy).Contents (Elt Ideal)) (a1 : (⟨S12x96, .f32⟩ : BufTy).Contents (Elt Ideal)) (a2 : (⟨S12, .f32⟩ : BufTy).Contents (Elt Ideal)) (a3 : (⟨S9x12, .f32⟩ : BufTy).Contents (Elt Ideal)) (a4 : (⟨S9, .f32⟩ : BufTy).Contents (Elt Ideal)) (b : Fin 8) (c : Fin 96) (i j : Fin 256) :
    val_main_v81 (F := Ideal) x a1 a2 a3 a4 (ix4 b c i j)
      = val_main_v24 (F := Ideal) x a1 a2 a3 a4 (ix2 b ⟨7, by decide⟩) * bordered (fun i j => x (ix4 b c i j)) (i.val + 2) (j.val + 1) := by
  have hi := i.isLt
  have hj := j.isLt
  rw [val_main_v81_apply, val_main_v80_apply, val_main_v78_apply, val_main_v77_apply, val_main_v76_apply, val_main_v79_apply, Ideal.mulf_def]
  refine congrArg₂ (· * ·) (congrArg _ (funext fun a => Fin.ext ?_)) ?_
  · match a with
    | ⟨0, _⟩ => exact Nat.div_one _
    | ⟨1, _⟩ => rfl
  · refine (congrArg _ (?_ : idx_main_v79 (ix4 b c i j) = ix4 b c (⟨i.val + 2, by omega⟩ : Fin 258) (⟨j.val + 1, by omega⟩ : Fin 258))).trans
      (padded_apply x b c _ _)
    refine funext fun a => Fin.ext ?_
    match a with
    | ⟨0, _⟩ => rfl
    | ⟨1, _⟩ => rfl
    | ⟨2, _⟩ => show 2 + i.val = i.val + 2; omega
    | ⟨3, _⟩ => show 1 + j.val = j.val + 1; omega

/-- Tap 8 of the window (row 2, column 2): weight `(b, 8)` of the table against the bordered plane
    `2` rows and `2` columns on. -/
theorem tap8_apply (x : (⟨S8x96x256x256, .f32⟩ : BufTy).Contents (Elt Ideal)) (a1 : (⟨S12x96, .f32⟩ : BufTy).Contents (Elt Ideal)) (a2 : (⟨S12, .f32⟩ : BufTy).Contents (Elt Ideal)) (a3 : (⟨S9x12, .f32⟩ : BufTy).Contents (Elt Ideal)) (a4 : (⟨S9, .f32⟩ : BufTy).Contents (Elt Ideal)) (b : Fin 8) (c : Fin 96) (i j : Fin 256) :
    val_main_v88 (F := Ideal) x a1 a2 a3 a4 (ix4 b c i j)
      = val_main_v24 (F := Ideal) x a1 a2 a3 a4 (ix2 b ⟨8, by decide⟩) * bordered (fun i j => x (ix4 b c i j)) (i.val + 2) (j.val + 2) := by
  have hi := i.isLt
  have hj := j.isLt
  rw [val_main_v88_apply, val_main_v87_apply, val_main_v85_apply, val_main_v84_apply, val_main_v83_apply, val_main_v86_apply, Ideal.mulf_def]
  refine congrArg₂ (· * ·) (congrArg _ (funext fun a => Fin.ext ?_)) ?_
  · match a with
    | ⟨0, _⟩ => exact Nat.div_one _
    | ⟨1, _⟩ => rfl
  · refine (congrArg _ (?_ : idx_main_v86 (ix4 b c i j) = ix4 b c (⟨i.val + 2, by omega⟩ : Fin 258) (⟨j.val + 2, by omega⟩ : Fin 258))).trans
      (padded_apply x b c _ _)
    refine funext fun a => Fin.ext ?_
    match a with
    | ⟨0, _⟩ => rfl
    | ⟨1, _⟩ => rfl
    | ⟨2, _⟩ => show 2 + i.val = i.val + 2; omega
    | ⟨3, _⟩ => show 2 + j.val = j.val + 2; omega

/-! ## The result -/

/-- THE REFERENCE'S RESULT at `(b, c, i, j)`: the nine products of the bordered plane `(b, c)` of the input
    against row `b` of the table, added one at a time from zero in row-major order of the window. -/
theorem result_apply (x : (⟨S8x96x256x256, .f32⟩ : BufTy).Contents (Elt Ideal)) (a1 : (⟨S12x96, .f32⟩ : BufTy).Contents (Elt Ideal)) (a2 : (⟨S12, .f32⟩ : BufTy).Contents (Elt Ideal)) (a3 : (⟨S9x12, .f32⟩ : BufTy).Contents (Elt Ideal)) (a4 : (⟨S9, .f32⟩ : BufTy).Contents (Elt Ideal)) (b : Fin 8) (c : Fin 96) (i j : Fin 256) :
    val_main_v89 (F := Ideal) x a1 a2 a3 a4 (ix4 b c i j)
      = windowTaps (fun p => val_main_v24 (F := Ideal) x a1 a2 a3 a4 (ix2 b p)) (bordered (fun i j => x (ix4 b c i j))) i.val j.val := by
  rw [val_main_v89_apply, val_main_v82_apply, val_main_v75_apply, val_main_v68_apply, val_main_v61_apply, val_main_v54_apply,
    val_main_v47_apply, val_main_v40_apply, val_main_v33_apply, val_main_v26_apply, val_main_cst_4_apply,
    tap0_apply, tap1_apply, tap2_apply, tap3_apply, tap4_apply, tap5_apply, tap6_apply, tap7_apply, tap8_apply,
    Ideal.ofBits_def, Ideal.ofBits_zero_f32]
  simp only [Ideal.addf_def]
  rfl

end Cert.ReferenceIdeal.RefValue

end
-- ==== Proof.Bridge.lean ====
/-
  The two idealized programs compute one function.

  Both results are the window sums of the input's bordered planes against a table of weights that is
  the attention function of an [8, 96] array of means.  The kernel's means are the transposed [96, 8]
  array of the planes' means taken run by run and scaled by 2⁻¹⁶; the reference's are the planes'
  sums divided by 65536.  These are one array (a regrouped sum, and a quotient by a non-zero real
  written as a product), so the tables are one table and the results one array.  No finiteness of
  the input is used anywhere: only commutativity and associativity of addition, `0 + a = a`,
  `a · 0 = 0`, and division by 65536 as multiplication by its inverse.
-/
import proofs.«144171_j87892210745472_2_alg».proof.Proof.KernelValue
import proofs.«144171_j87892210745472_2_alg».proof.Proof.RefValue

set_option maxRecDepth 16384

noncomputable section

namespace Cert.Bridge

open Cert.DynConv Cert.KernelIdeal.Attention Cert.KernelIdeal.ConvArray Cert.KernelIdeal.PoolArray
open Idealize.ShloMosaic Idealize.ShloMosaic.ValueIdx

/-- The reference's table is the attention function of the reference's means: the same host operations. -/
theorem ref_table (x : Cert.ReferenceIdeal.S8x96x256x256.Idx → EReal) (a1 : FVec Ideal Cert.ReferenceIdeal.S12x96 .f32)
    (a2 : FVec Ideal Cert.ReferenceIdeal.S12 .f32) (a3 : FVec Ideal Cert.ReferenceIdeal.S9x12 .f32) (a4 : FVec Ideal Cert.ReferenceIdeal.S9 .f32) :
    Cert.ReferenceIdeal.Read.val_main_v24 (F := Ideal) x a1 a2 a3 a4
      = attn (Cert.ReferenceIdeal.Read.val_main_v2 (F := Ideal) x) a1 a2 a3 a4 := rfl

/-- The kernel's transposed array of means is the reference's array of means. -/
theorem means_eq (x : Cert.KernelIdeal.S8x96x256x256.Idx → EReal) :
    transpose Cert.KernelIdeal.S8x96 [1, 0] (pooledT x) Cert.KernelIdeal.Gen.transposes_S96x8_S8x96_1_0
      = Cert.ReferenceIdeal.Read.val_main_v2 (F := Ideal) x := by
  funext y
  obtain ⟨b, c, rfl⟩ : ∃ (b : Fin 8) (c : Fin 96), y = ix2 b c := ⟨y 0, y 1, eq_ix2 y⟩
  refine (transpose_apply [1, 0] _ _ (ix2 b c) (ix2 c b) (fun e => by
    match e with
    | ⟨0, _⟩ => rfl
    | ⟨1, _⟩ => rfl)).trans ?_
  exact (Cert.ReferenceIdeal.RefValue.mean_apply x b c).symm

/-- THE TWO RESULTS ARE ONE ARRAY, as functions of the argument arrays. -/
theorem result_eq (x : Cert.KernelIdeal.S8x96x256x256.Idx → EReal) (a1 : FVec Ideal Cert.KernelIdeal.S12x96 .f32)
    (a2 : FVec Ideal Cert.KernelIdeal.S12 .f32) (a3 : FVec Ideal Cert.KernelIdeal.S9x12 .f32) (a4 : FVec Ideal Cert.KernelIdeal.S9 .f32) :
    Cert.KernelIdeal.KernelValue.result x a1 a2 a3 a4 = Cert.ReferenceIdeal.Read.val_main_v89 (F := Ideal) x a1 a2 a3 a4 := by
  funext y
  obtain ⟨b, c, i, j, rfl⟩ : ∃ (b : Fin 8) (c : Fin 96) (i j : Fin 256), y = ix4 b c i j := ⟨y 0, y 1, y 2, y 3, eq_ix4 y⟩
  rw [Cert.ReferenceIdeal.RefValue.result_apply, ref_table, ← means_eq]
  rfl

end Cert.Bridge

end
-- ==== Proof.lean ====
/-
  The certificate of a dynamic depthwise 3 × 3 convolution kernel against its jnp reference.

  The kernel runs two launches.  The first pools every plane of the input `x : [8, 96, 256, 256]` to
  its mean, summing four runs of 64 rows and multiplying by 2⁻¹⁶, into a [96, 8] array; host
  operations turn the transposed means into an [8, 9] table of softmax weights through two dense
  layers; the second launch writes, for every plane `(b, c)`, the 3 × 3 window sum of the plane with
  zero fill at the edges against row `b` of the table, built from the plane moved one column either
  way and the three row sums moved one row either way.  The reference takes the means by one sum
  and a division by 65536, computes the same table with the same host operations, pads the input
  with a border of zeros and adds the nine weighted cuts of the padded input one at a time.

  At the extended reals both results are, at `(b, c, i, j)`, the nine products of the bordered plane
  around `(i, j)` with row `b` of ONE table, added from zero: the two groupings of the nine products
  agree by associativity, a fill cell is a border cell, the means agree because a sum may be
  regrouped and a quotient by 65536 is a product with 2⁻¹⁶ for every extended real, and the table
  is the same function of equal means.  The precondition is never opened.

  The three frames are the generated ones (the reference's is its generated run with the result
  dropped); the idealization rewrote nothing, so `preserves` is trivial.
-/
import proofs.«144171_j87892210745472_2_alg».proof.Defs
import proofs.«144171_j87892210745472_2_alg».proof.Proof.Gen.Kernel
import proofs.«144171_j87892210745472_2_alg».proof.Proof.Gen.Kernel.Skeleton
import proofs.«144171_j87892210745472_2_alg».proof.Proof.Gen.Kernel.Launch
import proofs.«144171_j87892210745472_2_alg».proof.Proof.Gen.Kernel.Points
import proofs.«144171_j87892210745472_2_alg».proof.Proof.Gen.Kernel.Frame
import proofs.«144171_j87892210745472_2_alg».proof.Proof.Gen.KernelIdeal
import proofs.«144171_j87892210745472_2_alg».proof.Proof.Gen.KernelIdeal.Skeleton
import proofs.«144171_j87892210745472_2_alg».proof.Proof.Gen.KernelIdeal.Launch
import proofs.«144171_j87892210745472_2_alg».proof.Proof.Gen.KernelIdeal.Points
import proofs.«144171_j87892210745472_2_alg».proof.Proof.Gen.KernelIdeal.Frame
import proofs.«144171_j87892210745472_2_alg».proof.Proof.Gen.ReferenceIdeal
import proofs.«144171_j87892210745472_2_alg».proof.Proof.Gen.ReferenceIdeal.Run
import proofs.«144171_j87892210745472_2_alg».proof.Proof.Gen.ReferenceIdeal.Read
import proofs.«144171_j87892210745472_2_alg».proof.Proof.Gen.Pre_finite_inputs
import proofs.«144171_j87892210745472_2_alg».proof.Proof.Bridge
import Idealize.ShloMosaic.Adequacy
import Idealize.ShloMosaic.Init

noncomputable section

namespace Cert.Proof

open Idealize.ShloMosaic Idealize.ShloMosaic.TcCoe Idealize.SL.Sem

/-- The printed kernel runs and keeps its arguments. -/
theorem frame_kernel : Cert.frame_Kernel := fun m ρ _ => Cert.Kernel.Gen.frame m ρ

/-- The idealized kernel runs and keeps its arguments. -/
theorem frame_kernelIdeal : Cert.frame_KernelIdeal := fun m ρ _ => Cert.KernelIdeal.Gen.frame m ρ

/-- The idealized reference runs and keeps its arguments: its generated run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the arguments both idealized programs end with one result array: the kernel's run
    ends at its result function of the arguments, the reference's at its last stage, and the two are one function. -/
theorem algebraic : Cert.algebraic_KernelIdeal_ReferenceIdeal := by
  intro m ρ m' ρ' _ hagree
  refine ⟨_, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v89_eq, (hagree c).1, (hagree c).2.1, (hagree c).2.2.1, (hagree c).2.2.2.1, (hagree c).2.2.2.2]
  exact (Cert.Bridge.result_eq _ _ _ _ _).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
